-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512 : Shape := ⟨2, ![64, 512]⟩
abbrev S64x1024x1 : Shape := ⟨3, ![64, 1024, 1]⟩
abbrev S64x1024x1024 : Shape := ⟨3, ![64, 1024, 1024]⟩
abbrev S64x1024x512 : Shape := ⟨3, ![64, 1024, 512]⟩
abbrev S_ : Shape := ⟨0, ![]⟩

class Facts : Prop where
  bcast_S_S64x512 : S_.BroadcastsInDim S64x512 (![] : Fin 0 → Fin S64x512.rank)
  reducesTo_S64x512_S_d0_1 : S64x512.ReducesTo [0, 1] S_
  h_S_ : 0 < S_.numel
  bcast_S_S64x1024x1 : S_.BroadcastsInDim S64x1024x1 (![] : Fin 0 → Fin S64x1024x1.rank)
  reducesTo_S64x1024x1_S_d0_1_2 : S64x1024x1.ReducesTo [0, 1, 2] S_
  bcast_S_S64x1024x1024 : S_.BroadcastsInDim S64x1024x1024 (![] : Fin 0 → Fin S64x1024x1024.rank)
  reducesTo_S64x1024x1024_S_d0_1_2 : S64x1024x1024.ReducesTo [0, 1, 2] S_
  bcast_S_S64x1024x512 : S_.BroadcastsInDim S64x1024x512 (![] : Fin 0 → Fin S64x1024x512.rank)
  reducesTo_S64x1024x512_S_d0_1_2 : S64x1024x512.ReducesTo [0, 1, 2] S_

variable [Facts]

def fn_part5 {F : FTy → Type} [FloatOps F] (main_arg18 : FVec F S64x1024x1 .f32) (main_v83 : IVec S_ 1) (main_v84 : FVec F S64x1024x1 .f32) (main_cst_32 : FVec F S_ .f32) : IVec S_ 1 :=
  let main_v85 : FVec F S64x1024x1 .f32 := broadcastInDim S64x1024x1 ![] bcast_S_S64x1024x1 main_cst_32
  let main_v86 : IVec S64x1024x1 1 := cmpf .olt main_v84 main_v85
  let main_c_33 : IVec S_ 1 := constantI S_ 1 1#1
  let main_v87 : IVec S_ 1 := (fun x v => Host.reduce IntOp.andi x v reducesTo_S64x1024x1_S_d0_1_2 h_S_) main_v86 main_c_33
  let main_v88 : IVec S_ 1 := andi main_v83 main_v87
  let main_v89 : FVec F S64x1024x1 .f32 := Host.absf main_arg18
  let main_cst_34 : FVec F S_ .f32 := constant S_ .f32 0x7F800000#32
  let main_v90 : FVec F S64x1024x1 .f32 := broadcastInDim S64x1024x1 ![] bcast_S_S64x1024x1 main_cst_34
  let main_v91 : IVec S64x1024x1 1 := cmpf .olt main_v89 main_v90
  let main_c_35 : IVec S_ 1 := constantI S_ 1 1#1
  let main_v92 : IVec S_ 1 := (fun x v => Host.reduce IntOp.andi x v reducesTo_S64x1024x1_S_d0_1_2 h_S_) main_v91 main_c_35
  let main_v93 : IVec S_ 1 := andi main_v88 main_v92
  main_v93

def fn_part4 {F : FTy → Type} [FloatOps F] (main_arg14 : FVec F S64x1024x1 .f32) (main_arg15 : FVec F S64x1024x1 .f32) (main_arg16 : FVec F S64x1024x1 .f32) (main_arg17 : FVec F S64x1024x1 .f32) (main_arg18 : FVec F S64x1024x1 .f32) (main_v63 : IVec S_ 1) (main_v67 : IVec S_ 1) : IVec S_ 1 :=
  let main_v68 : IVec S_ 1 := andi main_v63 main_v67
  let main_v69 : FVec F S64x1024x1 .f32 := Host.absf main_arg14
  let main_cst_26 : FVec F S_ .f32 := constant S_ .f32 0x7F800000#32
  let main_v70 : FVec F S64x1024x1 .f32 := broadcastInDim S64x1024x1 ![] bcast_S_S64x1024x1 main_cst_26
  let main_v71 : IVec S64x1024x1 1 := cmpf .olt main_v69 main_v70
  let main_c_27 : IVec S_ 1 := constantI S_ 1 1#1
  let main_v72 : IVec S_ 1 := (fun x v => Host.reduce IntOp.andi x v reducesTo_S64x1024x1_S_d0_1_2 h_S_) main_v71 main_c_27
  let main_v73 : IVec S_ 1 := andi main_v68 main_v72
  let main_v74 : FVec F S64x1024x1 .f32 := Host.absf main_arg15
  let main_cst_28 : FVec F S_ .f32 := constant S_ .f32 0x7F800000#32
  let main_v75 : FVec F S64x1024x1 .f32 := broadcastInDim S64x1024x1 ![] bcast_S_S64x1024x1 main_cst_28
  let main_v76 : IVec S64x1024x1 1 := cmpf .olt main_v74 main_v75
  let main_c_29 : IVec S_ 1 := constantI S_ 1 1#1
  let main_v77 : IVec S_ 1 := (fun x v => Host.reduce IntOp.andi x v reducesTo_S64x1024x1_S_d0_1_2 h_S_) main_v76 main_c_29
  let main_v78 : IVec S_ 1 := andi main_v73 main_v77
  let main_v79 : FVec F S64x1024x1 .f32 := Host.absf main_arg16
  let main_cst_30 : FVec F S_ .f32 := constant S_ .f32 0x7F800000#32
  let main_v80 : FVec F S64x1024x1 .f32 := broadcastInDim S64x1024x1 ![] bcast_S_S64x1024x1 main_cst_30
  let main_v81 : IVec S64x1024x1 1 := cmpf .olt main_v79 main_v80
  let main_c_31 : IVec S_ 1 := constantI S_ 1 1#1
  let main_v82 : IVec S_ 1 := (fun x v => Host.reduce IntOp.andi x v reducesTo_S64x1024x1_S_d0_1_2 h_S_) main_v81 main_c_31
  let main_v83 : IVec S_ 1 := andi main_v78 main_v82
  let main_v84 : FVec F S64x1024x1 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S64x1024x1 .f32) (main_arg12 : FVec F S64x1024x1 .f32) (main_arg13 : FVec F S64x1024x1 .f32) (main_arg14 : FVec F S64x1024x1 .f32) (main_arg15 : FVec F S64x1024x1 .f32) (main_arg16 : FVec F S64x1024x1 .f32) (main_arg17 : FVec F S64x1024x1 .f32) (main_arg18 : FVec F S64x1024x1 .f32) (main_v48 : IVec S_ 1) (main_v49 : FVec F S64x1024x512 .f32) (main_v50 : FVec F S64x1024x512 .f32) : IVec S_ 1 :=
  let main_v51 : IVec S64x1024x512 1 := cmpf .olt main_v49 main_v50
  let main_c_19 : IVec S_ 1 := constantI S_ 1 1#1
  let main_v52 : IVec S_ 1 := (fun x v => Host.reduce IntOp.andi x v reducesTo_S64x1024x512_S_d0_1_2 h_S_) main_v51 main_c_19
  let main_v53 : IVec S_ 1 := andi main_v48 main_v52
  let main_v54 : FVec F S64x1024x1 .f32 := Host.absf main_arg11
  let main_cst_20 : FVec F S_ .f32 := constant S_ .f32 0x7F800000#32
  let main_v55 : FVec F S64x1024x1 .f32 := broadcastInDim S64x1024x1 ![] bcast_S_S64x1024x1 main_cst_20
  let main_v56 : IVec S64x1024x1 1 := cmpf .olt main_v54 main_v55
  let main_c_21 : IVec S_ 1 := constantI S_ 1 1#1
  let main_v57 : IVec S_ 1 := (fun x v => Host.reduce IntOp.andi x v reducesTo_S64x1024x1_S_d0_1_2 h_S_) main_v56 main_c_21
  let main_v58 : IVec S_ 1 := andi main_v53 main_v57
  let main_v59 : FVec F S64x1024x1 .f32 := Host.absf main_arg12
  let main_cst_22 : FVec F S_ .f32 := constant S_ .f32 0x7F800000#32
  let main_v60 : FVec F S64x1024x1 .f32 := broadcastInDim S64x1024x1 ![] bcast_S_S64x1024x1 main_cst_22
  let main_v61 : IVec S64x1024x1 1 := cmpf .olt main_v59 main_v60
  let main_c_23 : IVec S_ 1 := constantI S_ 1 1#1
  let main_v62 : IVec S_ 1 := (fun x v => Host.reduce IntOp.andi x v reducesTo_S64x1024x1_S_d0_1_2 h_S_) main_v61 main_c_23
  let main_v63 : IVec S_ 1 := andi main_v58 main_v62
  let main_v64 : FVec F S64x1024x1 .f32 := Host.absf main_arg13
  let main_cst_24 : FVec F S_ .f32 := constant S_ .f32 0x7F800000#32
  let main_v65 : FVec F S64x1024x1 .f32 := broadcastInDim S64x1024x1 ![] bcast_S_S64x1024x1 main_cst_24
  let main_v66 : IVec S64x1024x1 1 := cmpf .olt main_v64 main_v65
  let main_c_25 : IVec S_ 1 := constantI S_ 1 1#1
  let main_v67 : IVec S_ 1 := (fun x v => Host.reduce IntOp.andi x v reducesTo_S64x1024x1_S_d0_1_2 h_S_) main_v66 main_c_25
  fn_part4 (F := F) main_arg14 main_arg15 main_arg16 main_arg17 main_arg18 main_v63 main_v67

def fn_part2 {F : FTy → Type} [FloatOps F] (main_arg7 : FVec F S64x1024x1024 .f32) (main_arg8 : FVec F S64x1024x512 .f32) (main_arg9 : FVec F S64x1024x1024 .f32) (main_arg10 : FVec F S64x1024x512 .f32) (main_arg11 : FVec F S64x1024x1 .f32) (main_arg12 : FVec F S64x1024x1 .f32) (main_arg13 : FVec F S64x1024x1 .f32) (main_arg14 : FVec F S64x1024x1 .f32) (main_arg15 : FVec F S64x1024x1 .f32) (main_arg16 : FVec F S64x1024x1 .f32) (main_arg17 : FVec F S64x1024x1 .f32) (main_arg18 : FVec F S64x1024x1 .f32) (main_v33 : IVec S_ 1) : IVec S_ 1 :=
  let main_v34 : FVec F S64x1024x1024 .f32 := Host.absf main_arg7
  let main_cst_12 : FVec F S_ .f32 := constant S_ .f32 0x7F800000#32
  let main_v35 : FVec F S64x1024x1024 .f32 := broadcastInDim S64x1024x1024 ![] bcast_S_S64x1024x1024 main_cst_12
  let main_v36 : IVec S64x1024x1024 1 := cmpf .olt main_v34 main_v35
  let main_c_13 : IVec S_ 1 := constantI S_ 1 1#1
  let main_v37 : IVec S_ 1 := (fun x v => Host.reduce IntOp.andi x v reducesTo_S64x1024x1024_S_d0_1_2 h_S_) main_v36 main_c_13
  let main_v38 : IVec S_ 1 := andi main_v33 main_v37
  let main_v39 : FVec F S64x1024x512 .f32 := Host.absf main_arg8
  let main_cst_14 : FVec F S_ .f32 := constant S_ .f32 0x7F800000#32
  let main_v40 : FVec F S64x1024x512 .f32 := broadcastInDim S64x1024x512 ![] bcast_S_S64x1024x512 main_cst_14
  let main_v41 : IVec S64x1024x512 1 := cmpf .olt main_v39 main_v40
  let main_c_15 : IVec S_ 1 := constantI S_ 1 1#1
  let main_v42 : IVec S_ 1 := (fun x v => Host.reduce IntOp.andi x v reducesTo_S64x1024x512_S_d0_1_2 h_S_) main_v41 main_c_15
  let main_v43 : IVec S_ 1 := andi main_v38 main_v42
  let main_v44 : FVec F S64x1024x1024 .f32 := Host.absf main_arg9
  let main_cst_16 : FVec F S_ .f32 := constant S_ .f32 0x7F800000#32
  let main_v45 : FVec F S64x1024x1024 .f32 := broadcastInDim S64x1024x1024 ![] bcast_S_S64x1024x1024 main_cst_16
  let main_v46 : IVec S64x1024x1024 1 := cmpf .olt main_v44 main_v45
  let main_c_17 : IVec S_ 1 := constantI S_ 1 1#1
  let main_v47 : IVec S_ 1 := (fun x v => Host.reduce IntOp.andi x v reducesTo_S64x1024x1024_S_d0_1_2 h_S_) main_v46 main_c_17
  let main_v48 : IVec S_ 1 := andi main_v43 main_v47
  let main_v49 : FVec F S64x1024x512 .f32 := Host.absf main_arg10
  let main_cst_18 : FVec F S_ .f32 := constant S_ .f32 0x7F800000#32
  let main_v50 : FVec F S64x1024x512 .f32 := broadcastInDim S64x1024x512 ![] bcast_S_S64x1024x512 main_cst_18
  fn_part3 (F := F) main_arg11 main_arg12 main_arg13 main_arg14 main_arg15 main_arg16 main_arg17 main_arg18 main_v48 main_v49 main_v50

def fn_part1 {F : FTy → Type} [FloatOps F] (main_arg4 : FVec F S64x1024x512 .f32) (main_arg5 : FVec F S64x1024x1024 .f32) (main_arg6 : FVec F S64x1024x512 .f32) (main_arg7 : FVec F S64x1024x1024 .f32) (main_arg8 : FVec F S64x1024x512 .f32) (main_arg9 : FVec F S64x1024x1024 .f32) (main_arg10 : FVec F S64x1024x512 .f32) (main_arg11 : FVec F S64x1024x1 .f32) (main_arg12 : FVec F S64x1024x1 .f32) (main_arg13 : FVec F S64x1024x1 .f32) (main_arg14 : FVec F S64x1024x1 .f32) (main_arg15 : FVec F S64x1024x1 .f32) (main_arg16 : FVec F S64x1024x1 .f32) (main_arg17 : FVec F S64x1024x1 .f32) (main_arg18 : FVec F S64x1024x1 .f32) (main_v13 : IVec S_ 1) (main_v16 : IVec S64x1024x1024 1) : IVec S_ 1 :=
  let main_c_5 : IVec S_ 1 := constantI S_ 1 1#1
  let main_v17 : IVec S_ 1 := (fun x v => Host.reduce IntOp.andi x v reducesTo_S64x1024x1024_S_d0_1_2 h_S_) main_v16 main_c_5
  let main_v18 : IVec S_ 1 := andi main_v13 main_v17
  let main_v19 : FVec F S64x1024x512 .f32 := Host.absf main_arg4
  let main_cst_6 : FVec F S_ .f32 := constant S_ .f32 0x7F800000#32
  let main_v20 : FVec F S64x1024x512 .f32 := broadcastInDim S64x1024x512 ![] bcast_S_S64x1024x512 main_cst_6
  let main_v21 : IVec S64x1024x512 1 := cmpf .olt main_v19 main_v20
  let main_c_7 : IVec S_ 1 := constantI S_ 1 1#1
  let main_v22 : IVec S_ 1 := (fun x v => Host.reduce IntOp.andi x v reducesTo_S64x1024x512_S_d0_1_2 h_S_) main_v21 main_c_7
  let main_v23 : IVec S_ 1 := andi main_v18 main_v22
  let main_v24 : FVec F S64x1024x1024 .f32 := Host.absf main_arg5
  let main_cst_8 : FVec F S_ .f32 := constant S_ .f32 0x7F800000#32
  let main_v25 : FVec F S64x1024x1024 .f32 := broadcastInDim S64x1024x1024 ![] bcast_S_S64x1024x1024 main_cst_8
  let main_v26 : IVec S64x1024x1024 1 := cmpf .olt main_v24 main_v25
  let main_c_9 : IVec S_ 1 := constantI S_ 1 1#1
  let main_v27 : IVec S_ 1 := (fun x v => Host.reduce IntOp.andi x v reducesTo_S64x1024x1024_S_d0_1_2 h_S_) main_v26 main_c_9
  let main_v28 : IVec S_ 1 := andi main_v23 main_v27
  let main_v29 : FVec F S64x1024x512 .f32 := Host.absf main_arg6
  let main_cst_10 : FVec F S_ .f32 := constant S_ .f32 0x7F800000#32
  let main_v30 : FVec F S64x1024x512 .f32 := broadcastInDim S64x1024x512 ![] bcast_S_S64x1024x512 main_cst_10
  let main_v31 : IVec S64x1024x512 1 := cmpf .olt main_v29 main_v30
  let main_c_11 : IVec S_ 1 := constantI S_ 1 1#1
  let main_v32 : IVec S_ 1 := (fun x v => Host.reduce IntOp.andi x v reducesTo_S64x1024x512_S_d0_1_2 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S64x512 .f32) (main_arg1 : FVec F S64x1024x1 .f32) (main_arg2 : FVec F S64x1024x1 .f32) (main_arg3 : FVec F S64x1024x1024 .f32) (main_arg4 : FVec F S64x1024x512 .f32) (main_arg5 : FVec F S64x1024x1024 .f32) (main_arg6 : FVec F S64x1024x512 .f32) (main_arg7 : FVec F S64x1024x1024 .f32) (main_arg8 : FVec F S64x1024x512 .f32) (main_arg9 : FVec F S64x1024x1024 .f32) (main_arg10 : FVec F S64x1024x512 .f32) (main_arg11 : FVec F S64x1024x1 .f32) (main_arg12 : FVec F S64x1024x1 .f32) (main_arg13 : FVec F S64x1024x1 .f32) (main_arg14 : FVec F S64x1024x1 .f32) (main_arg15 : FVec F S64x1024x1 .f32) (main_arg16 : FVec F S64x1024x1 .f32) (main_arg17 : FVec F S64x1024x1 .f32) (main_arg18 : FVec F S64x1024x1 .f32) : IVec S_ 1 :=
  let main_v0 : FVec F S64x512 .f32 := Host.absf main_arg0
  let main_cst : FVec F S_ .f32 := constant S_ .f32 0x7F800000#32
  let main_v1 : FVec F S64x512 .f32 := broadcastInDim S64x512 ![] bcast_S_S64x512 main_cst
  let main_v2 : IVec S64x512 1 := cmpf .olt main_v0 main_v1
  let main_c : IVec S_ 1 := constantI S_ 1 1#1
  let main_v3 : IVec S_ 1 := (fun x v => Host.reduce IntOp.andi x v reducesTo_S64x512_S_d0_1 h_S_) main_v2 main_c
  let main_v4 : FVec F S64x1024x1 .f32 := Host.absf main_arg1
  let main_cst_0 : FVec F S_ .f32 := constant S_ .f32 0x7F800000#32
  let main_v5 : FVec F S64x1024x1 .f32 := broadcastInDim S64x1024x1 ![] bcast_S_S64x1024x1 main_cst_0
  let main_v6 : IVec S64x1024x1 1 := cmpf .olt main_v4 main_v5
  let main_c_1 : IVec S_ 1 := constantI S_ 1 1#1
  let main_v7 : IVec S_ 1 := (fun x v => Host.reduce IntOp.andi x v reducesTo_S64x1024x1_S_d0_1_2 h_S_) main_v6 main_c_1
  let main_v8 : IVec S_ 1 := andi main_v3 main_v7
  let main_v9 : FVec F S64x1024x1 .f32 := Host.absf main_arg2
  let main_cst_2 : FVec F S_ .f32 := constant S_ .f32 0x7F800000#32
  let main_v10 : FVec F S64x1024x1 .f32 := broadcastInDim S64x1024x1 ![] bcast_S_S64x1024x1 main_cst_2
  let main_v11 : IVec S64x1024x1 1 := cmpf .olt main_v9 main_v10
  let main_c_3 : IVec S_ 1 := constantI S_ 1 1#1
  let main_v12 : IVec S_ 1 := (fun x v => Host.reduce IntOp.andi x v reducesTo_S64x1024x1_S_d0_1_2 h_S_) main_v11 main_c_3
  let main_v13 : IVec S_ 1 := andi main_v8 main_v12
  let main_v14 : FVec F S64x1024x1024 .f32 := Host.absf main_arg3
  let main_cst_4 : FVec F S_ .f32 := constant S_ .f32 0x7F800000#32
  let main_v15 : FVec F S64x1024x1024 .f32 := broadcastInDim S64x1024x1024 ![] bcast_S_S64x1024x1024 main_cst_4
  let main_v16 : IVec S64x1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S64x512 : Shape := ⟨2, ![64, 512]⟩
abbrev S64x1024x1 : Shape := ⟨3, ![64, 1024, 1]⟩
abbrev S64x1024x1024 : Shape := ⟨3, ![64, 1024, 1024]⟩
abbrev S64x1024x512 : Shape := ⟨3, ![64, 1024, 512]⟩
abbrev S64x512x1 : Shape := ⟨3, ![64, 512, 1]⟩
abbrev S1x1024x1 : Shape := ⟨3, ![1, 1024, 1]⟩
abbrev S1x512x1 : Shape := ⟨3, ![1, 512, 1]⟩
abbrev S1x1024x1024 : Shape := ⟨3, ![1, 1024, 1024]⟩
abbrev S1x1024x512 : Shape := ⟨3, ![1, 1024, 512]⟩
abbrev S1024x1 : Shape := ⟨2, ![1024, 1]⟩
abbrev S512x1 : Shape := ⟨2, ![512, 1]⟩
abbrev S1024x1024 : Shape := ⟨2, ![1024, 1024]⟩
abbrev S1024x512 : Shape := ⟨2, ![1024, 512]⟩
abbrev S64x1024 : Shape := ⟨2, ![64, 1024]⟩

abbrev nBuf : Space → Nat
  | .hbm => 23
  | .vmem => 42
  | .smem => 0
  | _ => 0

abbrev bufTy : (tb : Table) → Fin (tcTables nBuf tb) → BufTy
  | .hbm, ⟨0, _⟩ => ⟨S64x512, .f32⟩
  | .hbm, ⟨1, _⟩ => ⟨S64x1024x1, .f32⟩
  | .hbm, ⟨2, _⟩ => ⟨S64x1024x1, .f32⟩
  | .hbm, ⟨3, _⟩ => ⟨S64x1024x1024, .f32⟩
  | .hbm, ⟨4, _⟩ => ⟨S64x1024x512, .f32⟩
  | .hbm, ⟨5, _⟩ => ⟨S64x1024x1024, .f32⟩
  | .hbm, ⟨6, _⟩ => ⟨S64x1024x512, .f32⟩
  | .hbm, ⟨7, _⟩ => ⟨S64x1024x1024, .f32⟩
  | .hbm, ⟨8, _⟩ => ⟨S64x1024x512, .f32⟩
  | .hbm, ⟨9, _⟩ => ⟨S64x1024x1024, .f32⟩
  | .hbm, ⟨10, _⟩ => ⟨S64x1024x512, .f32⟩
  | .hbm, ⟨11, _⟩ => ⟨S64x1024x1, .f32⟩
  | .hbm, ⟨12, _⟩ => ⟨S64x1024x1, .f32⟩
  | .hbm, ⟨13, _⟩ => ⟨S64x1024x1, .f32⟩
  | .hbm, ⟨14, _⟩ => ⟨S64x1024x1, .f32⟩
  | .hbm, ⟨15, _⟩ => ⟨S64x1024x1, .f32⟩
  | .hbm, ⟨16, _⟩ => ⟨S64x1024x1, .f32⟩
  | .hbm, ⟨17, _⟩ => ⟨S64x1024x1, .f32⟩
  | .hbm, ⟨18, _⟩ => ⟨S64x1024x1, .f32⟩
  | .hbm, ⟨19, _⟩ => ⟨S64x512x1, .f32⟩
  | .hbm, ⟨20, _⟩ => ⟨S64x1024x1, .f32⟩
  | .hbm, ⟨21, _⟩ => ⟨S64x1024x1, .f32⟩
  | .hbm, ⟨22, _⟩ => ⟨S64x1024, .f32⟩
  | .local _ .vmem, ⟨0, _⟩ => ⟨S1x1024x1, .f32⟩
  | .local _ .vmem, ⟨1, _⟩ => ⟨S1x1024x1, .f32⟩
  | .local _ .vmem, ⟨2, _⟩ => ⟨S1x1024x1, .f32⟩
  | .local _ .vmem, ⟨3, _⟩ => ⟨S1x1024x1, .f32⟩
  | .local _ .vmem, ⟨4, _⟩ => ⟨S1x512x1, .f32⟩
  | .local _ .vmem, ⟨5, _⟩ => ⟨S1x512x1, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1024x512, .f32⟩
  | .local _ .vmem, ⟨9, _⟩ => ⟨S1x1024x512, .f32⟩
  | .local _ .vmem, ⟨10, _⟩ => ⟨S1x1024x1024, .f32⟩
  | .local _ .vmem, ⟨11, _⟩ => ⟨S1x1024x1024, .f32⟩
  | .local _ .vmem, ⟨12, _⟩ => ⟨S1x1024x512, .f32⟩
  | .local _ .vmem, ⟨13, _⟩ => ⟨S1x1024x512, .f32⟩
  | .local _ .vmem, ⟨14, _⟩ => ⟨S1x1024x1024, .f32⟩
  | .local _ .vmem, ⟨15, _⟩ => ⟨S1x1024x1024, .f32⟩
  | .local _ .vmem, ⟨16, _⟩ => ⟨S1x1024x512, .f32⟩
  | .local _ .vmem, ⟨17, _⟩ => ⟨S1x1024x512, .f32⟩
  | .local _ .vmem, ⟨18, _⟩ => ⟨S1x1024x1024, .f32⟩
  | .local _ .vmem, ⟨19, _⟩ => ⟨S1x1024x1024, .f32⟩
  | .local _ .vmem, ⟨20, _⟩ => ⟨S1x1024x512, .f32⟩
  | .local _ .vmem, ⟨21, _⟩ => ⟨S1x1024x512, .f32⟩
  | .local _ .vmem, ⟨22, _⟩ => ⟨S1x1024x1, .f32⟩
  | .local _ .vmem, ⟨23, _⟩ => ⟨S1x1024x1, .f32⟩
  | .local _ .vmem, ⟨24, _⟩ => ⟨S1x1024x1, .f32⟩
  | .local _ .vmem, ⟨25, _⟩ => ⟨S1x1024x1, .f32⟩
  | .local _ .vmem, ⟨26, _⟩ => ⟨S1x1024x1, .f32⟩
  | .local _ .vmem, ⟨27, _⟩ => ⟨S1x1024x1, .f32⟩
  | .local _ .vmem, ⟨28, _⟩ => ⟨S1x1024x1, .f32⟩
  | .local _ .vmem, ⟨29, _⟩ => ⟨S1x1024x1, .f32⟩
  | .local _ .vmem, ⟨30, _⟩ => ⟨S1x1024x1, .f32⟩
  | .local _ .vmem, ⟨31, _⟩ => ⟨S1x1024x1, .f32⟩
  | .local _ .vmem, ⟨32, _⟩ => ⟨S1x1024x1, .f32⟩
  | .local _ .vmem, ⟨33, _⟩ => ⟨S1x1024x1, .f32⟩
  | .local _ .vmem, ⟨34, _⟩ => ⟨S1x1024x1, .f32⟩
  | .local _ .vmem, ⟨35, _⟩ => ⟨S1x1024x1, .f32⟩
  | .local _ .vmem, ⟨36, _⟩ => ⟨S1x1024x1, .f32⟩
  | .local _ .vmem, ⟨37, _⟩ => ⟨S1x1024x1, .f32⟩
  | .local _ .vmem, ⟨38, _⟩ => ⟨S1x1024x1, .f32⟩
  | .local _ .vmem, ⟨39, _⟩ => ⟨S1x1024x1, .f32⟩
  | .local _ .vmem, ⟨40, _⟩ => ⟨S1x1024x1, .f32⟩
  | .local _ .vmem, ⟨41, _⟩ => ⟨S1x1024x1, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1_0 : Ref sig .tc := ⟨.hbm, 20, rfl⟩
abbrev main_v1_1 : Ref sig .tc := ⟨.hbm, 21, rfl⟩
abbrev main_v2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1024x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1024x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1024x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1024x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1024x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1024x1 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1024x1 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1024x1 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x1024x1 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1024x1 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

class Facts₀ : Prop where
  bcast_S64x512_S64x512x1_0_1 : S64x512.BroadcastsInDim S64x512x1 (![0, 1] : Fin 2 → Fin S64x512x1.rank)
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x1_S1x1024x1 : S1024x1.ShapeCasts S1x1024x1
  shapeCasts_S64x1024x1_S64x1024 : S64x1024x1.ShapeCasts S64x1024
  dot_S1024x1024_S1024x1_S1024x1_1_0_0_1_n_n_wf : DotDims.WF S1024x1024 S1024x1 S1024x1 [1] [0] [0] [1] [] []
  dot_S1024x512_S512x1_S1024x1_1_0_0_1_n_n_wf : DotDims.WF S1024x512 S512x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1.size a ≤ S64x1024x1.size a
  hwx0_0 : ∀ i : grid0.Coords, EltTy.bits .f32 = 32 ∨ (Rect.block (s := S64x1024x1) S1x1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1.size a ≤ S64x1024x1.size a
  hwx0_1 : ∀ i : grid0.Coords, EltTy.bits .f32 = 32 ∨ (Rect.block (s := S64x1024x1) S1x1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S64x512x1.size a
  hwx0_2 : ∀ i : grid0.Coords, EltTy.bits .f32 = 32 ∨ (Rect.block (s := S64x512x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S64x1024x1024.size a
  hwx0_3 : ∀ i : grid0.Coords, EltTy.bits .f32 = 32 ∨ (Rect.block (s := S64x1024x1024) S1x1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x512.size a ≤ S64x1024x512.size a
  hwx0_4 : ∀ i : grid0.Coords, EltTy.bits .f32 = 32 ∨ (Rect.block (s := S64x1024x512) S1x1024x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S64x1024x1024.size a
  hwx0_5 : ∀ i : grid0.Coords, EltTy.bits .f32 = 32 ∨ (Rect.block (s := S64x1024x1024) S1x1024x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x512.size a ≤ S64x1024x512.size a
  hwx0_6 : ∀ i : grid0.Coords, EltTy.bits .f32 = 32 ∨ (Rect.block (s := S64x1024x512) S1x1024x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x1024.size a ≤ S64x1024x1024.size a
  hwx0_7 : ∀ i : grid0.Coords, EltTy.bits .f32 = 32 ∨ (Rect.block (s := S64x1024x1024) S1x1024x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024x512.size a ≤ S64x1024x512.size a
  hwx0_8 : ∀ i : grid0.Coords, EltTy.bits .f32 = 32 ∨ (Rect.block (s := S64x1024x512) S1x1024x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1024x1024.size a ≤ S64x1024x1024.size a
  hwx0_9 : ∀ i : grid0.Coords, EltTy.bits .f32 = 32 ∨ (Rect.block (s := S64x1024x1024) S1x1024x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1024x512.size a ≤ S64x1024x512.size a
  hwx0_10 : ∀ i : grid0.Coords, EltTy.bits .f32 = 32 ∨ (Rect.block (s := S64x1024x512) S1x1024x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1024x1.size a ≤ S64x1024x1.size a
  hwx0_11 : ∀ i : grid0.Coords, EltTy.bits .f32 = 32 ∨ (Rect.block (s := S64x1024x1) S1x1024x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x1024x1.size a ≤ S64x1024x1.size a
  hwx0_12 : ∀ i : grid0.Coords, EltTy.bits .f32 = 32 ∨ (Rect.block (s := S64x1024x1) S1x1024x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x1024x1.size a ≤ S64x1024x1.size a
  hwx0_13 : ∀ i : grid0.Coords, EltTy.bits .f32 = 32 ∨ (Rect.block (s := S64x1024x1) S1x1024x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x1024x1.size a ≤ S64x1024x1.size a
  hwx0_14 : ∀ i : grid0.Coords, EltTy.bits .f32 = 32 ∨ (Rect.block (s := S64x1024x1) S1x1024x1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x1024x1.size a ≤ S64x1024x1.size a
  hwx0_15 : ∀ i : grid0.Coords, EltTy.bits .f32 = 32 ∨ (Rect.block (s := S64x1024x1) S1x1024x1.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x1024x1.size a ≤ S64x1024x1.size a
  hwx0_16 : ∀ i : grid0.Coords, EltTy.bits .f32 = 32 ∨ (Rect.block (s := S64x1024x1) S1x1024x1.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1x1024x1.size a ≤ S64x1024x1.size a
  hwx0_17 : ∀ i : grid0.Coords, EltTy.bits .f32 = 32 ∨ (Rect.block (s := S64x1024x1) S1x1024x1.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S1x1024x1.size a ≤ S64x1024x1.size a
  hwx0_18 : ∀ i : grid0.Coords, EltTy.bits .f32 = 32 ∨ (Rect.block (s := S64x1024x1) S1x1024x1.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S1x1024x1.size a ≤ S64x1024x1.size a
  hwx0_19 : ∀ i : grid0.Coords, EltTy.bits .f32 = 32 ∨ (Rect.block (s := S64x1024x1) S1x1024x1.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S1x1024x1.size a ≤ S64x1024x1.size a
  hwx0_20 : ∀ i : grid0.Coords, EltTy.bits .f32 = 32 ∨ (Rect.block (s := S64x1024x1) S1x1024x1.size (cc0_transform_20 i) (hinb0_20 i)).WholeWords (EltTy.packing .f32)

variable [Facts₀]

def dot_S1024x1024_S1024x1_S1024x1_1_0_0_1_n_n : DotDims S1024x1024 S1024x1 S1024x1 where
  lhsContracting := [1]
  rhsContracting := [0]
  lhsNonContracting := [0]
  rhsNonContracting := [1]
  lhsBatch := []
  rhsBatch := []
  wf := dot_S1024x1024_S1024x1_S1024x1_1_0_0_1_n_n_wf
def dot_S1024x512_S512x1_S1024x1_1_0_0_1_n_n : DotDims S1024x512 S512x1 S1024x1 where
  lhsContracting := [1]
  rhsContracting := [0]
  lhsNonContracting := [0]
  rhsNonContracting := [1]
  lhsBatch := []
  rhsBatch := []
  wf := dot_S1024x512_S512x1_S1024x1_1_0_0_1_n_n_wf

abbrev win0_0 : Pipeline.Window sig grid0 :=
  Pipeline.Window.ofSpec (Memref.whole main_arg1) S1x1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1024x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x1024x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x1024x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1x1024x1024.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x1024x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1x1024x1024.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1x1024x512.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S1x1024x1.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S1x1024x1.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S1x1024x1.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S1x1024x1.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S1x1024x1.size cc0_transform_15 reads0_15 false false 2 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S1x1024x1.size cc0_transform_16 reads0_16 false false 2 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S1x1024x1.size cc0_transform_17 reads0_17 false false 2 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S1x1024x1.size cc0_transform_18 reads0_18 false false 2 stage0_18 sem0_18
    hrank0 hreads0_18 hinb0_18 nbuf0_18 (Memref.isWhole_whole _) hwx0_18 hstage0_18

abbrev win0_19 : Pipeline.Window sig grid0 :=
  Pipeline.Window.ofSpec (Memref.whole main_v1_0) S1x1024x1.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v1_1) S1x1024x1.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

class Facts : Prop extends Facts₀ where

variable [Facts]
-- ==== ReferenceIdeal.lean ====
abbrev S64x512 : Shape := ⟨2, ![64, 512]⟩
abbrev S64x1024x1 : Shape := ⟨3, ![64, 1024, 1]⟩
abbrev S64x1024x1024 : Shape := ⟨3, ![64, 1024, 1024]⟩
abbrev S64x1024x512 : Shape := ⟨3, ![64, 1024, 512]⟩
abbrev S64x512x1 : Shape := ⟨3, ![64, 512, 1]⟩
abbrev S_ : Shape := ⟨0, ![]⟩
abbrev S64x1024 : Shape := ⟨2, ![64, 1024]⟩

abbrev nBuf : Space → Nat
  | .hbm => 71
  | .vmem => 0
  | .smem => 0
  | _ => 0

abbrev bufTy : (tb : Table) → Fin (tcTables nBuf tb) → BufTy
  | .hbm, ⟨0, _⟩ => ⟨S64x512, .f32⟩
  | .hbm, ⟨1, _⟩ => ⟨S64x1024x1, .f32⟩
  | .hbm, ⟨2, _⟩ => ⟨S64x1024x1, .f32⟩
  | .hbm, ⟨3, _⟩ => ⟨S64x1024x1024, .f32⟩
  | .hbm, ⟨4, _⟩ => ⟨S64x1024x512, .f32⟩
  | .hbm, ⟨5, _⟩ => ⟨S64x1024x1024, .f32⟩
  | .hbm, ⟨6, _⟩ => ⟨S64x1024x512, .f32⟩
  | .hbm, ⟨7, _⟩ => ⟨S64x1024x1024, .f32⟩
  | .hbm, ⟨8, _⟩ => ⟨S64x1024x512, .f32⟩
  | .hbm, ⟨9, _⟩ => ⟨S64x1024x1024, .f32⟩
  | .hbm, ⟨10, _⟩ => ⟨S64x1024x512, .f32⟩
  | .hbm, ⟨11, _⟩ => ⟨S64x1024x1, .f32⟩
  | .hbm, ⟨12, _⟩ => ⟨S64x1024x1, .f32⟩
  | .hbm, ⟨13, _⟩ => ⟨S64x1024x1, .f32⟩
  | .hbm, ⟨14, _⟩ => ⟨S64x1024x1, .f32⟩
  | .hbm, ⟨15, _⟩ => ⟨S64x1024x1, .f32⟩
  | .hbm, ⟨16, _⟩ => ⟨S64x1024x1, .f32⟩
  | .hbm, ⟨17, _⟩ => ⟨S64x1024x1, .f32⟩
  | .hbm, ⟨18, _⟩ => ⟨S64x1024x1, .f32⟩
  | .hbm, ⟨19, _⟩ => ⟨S64x512x1, .f32⟩
  | .hbm, ⟨20, _⟩ => ⟨S64x1024x1, .f32⟩
  | .hbm, ⟨21, _⟩ => ⟨S64x1024x1, .f32⟩
  | .hbm, ⟨22, _⟩ => ⟨S64x1024x1, .f32⟩
  | .hbm, ⟨23, _⟩ => ⟨S64x1024x1, .f32⟩
  | .hbm, ⟨24, _⟩ => ⟨S64x1024x1, .f32⟩
  | .hbm, ⟨25, _⟩ => ⟨S64x1024x1, .f32⟩
  | .hbm, ⟨26, _⟩ => ⟨S64x1024x1, .f32⟩
  | .hbm, ⟨27, _⟩ => ⟨S_, .f32⟩
  | .hbm, ⟨28, _⟩ => ⟨S64x1024x1, .f32⟩
  | .hbm, ⟨29, _⟩ => ⟨S64x1024x1, .f32⟩
  | .hbm, ⟨30, _⟩ => ⟨S_, .f32⟩
  | .hbm, ⟨31, _⟩ => ⟨S64x1024x1, .f32⟩
  | .hbm, ⟨32, _⟩ => ⟨S64x1024x1, .f32⟩
  | .hbm, ⟨33, _⟩ => ⟨S64x1024x1, .f32⟩
  | .hbm, ⟨34, _⟩ => ⟨S64x1024x1, .f32⟩
  | .hbm, ⟨35, _⟩ => ⟨S64x1024x1, .f32⟩
  | .hbm, ⟨36, _⟩ => ⟨S64x1024x1, .f32⟩
  | .hbm, ⟨37, _⟩ => ⟨S64x1024x1, .f32⟩
  | .hbm, ⟨38, _⟩ => ⟨S64x1024x1, .f32⟩
  | .hbm, ⟨39, _⟩ => ⟨S64x1024x1, .f32⟩
  | .hbm, ⟨40, _⟩ => ⟨S_, .f32⟩
  | .hbm, ⟨41, _⟩ => ⟨S64x1024x1, .f32⟩
  | .hbm, ⟨42, _⟩ => ⟨S64x1024x1, .f32⟩
  | .hbm, ⟨43, _⟩ => ⟨S_, .f32⟩
  | .hbm, ⟨44, _⟩ => ⟨S64x1024x1, .f32⟩
  | .hbm, ⟨45, _⟩ => ⟨S64x1024x1, .f32⟩
  | .hbm, ⟨46, _⟩ => ⟨S64x1024x1, .f32⟩
  | .hbm, ⟨47, _⟩ => ⟨S64x1024x1, .f32⟩
  | .hbm, ⟨48, _⟩ => ⟨S64x1024x1, .f32⟩
  | .hbm, ⟨49, _⟩ => ⟨S64x1024x1, .f32⟩
  | .hbm, ⟨50, _⟩ => ⟨S64x1024x1, .f32⟩
  | .hbm, ⟨51, _⟩ => ⟨S64x1024x1, .f32⟩
  | .hbm, ⟨52, _⟩ => ⟨S64x1024x1, .f32⟩
  | .hbm, ⟨53, _⟩ => ⟨S64x1024x1, .f32⟩
  | .hbm, ⟨54, _⟩ => ⟨S64x1024x1, .f32⟩
  | .hbm, ⟨55, _⟩ => ⟨S64x1024x1, .f32⟩
  | .hbm, ⟨56, _⟩ => ⟨S64x1024x1, .f32⟩
  | .hbm, ⟨57, _⟩ => ⟨S64x1024x1, .f32⟩
  | .hbm, ⟨58, _⟩ => ⟨S64x1024x1, .f32⟩
  | .hbm, ⟨59, _⟩ => ⟨S_, .f32⟩
  | .hbm, ⟨60, _⟩ => ⟨S64x1024x1, .f32⟩
  | .hbm, ⟨61, _⟩ => ⟨S64x1024x1, .f32⟩
  | .hbm, ⟨62, _⟩ => ⟨S_, .f32⟩
  | .hbm, ⟨63, _⟩ => ⟨S64x1024x1, .f32⟩
  | .hbm, ⟨64, _⟩ => ⟨S64x1024x1, .f32⟩
  | .hbm, ⟨65, _⟩ => ⟨S64x1024x1, .f32⟩
  | .hbm, ⟨66, _⟩ => ⟨S64x1024x1, .f32⟩
  | .hbm, ⟨67, _⟩ => ⟨S64x1024x1, .f32⟩
  | .hbm, ⟨68, _⟩ => ⟨S64x1024x1, .f32⟩
  | .hbm, ⟨69, _⟩ => ⟨S64x1024x1, .f32⟩
  | .hbm, ⟨70, _⟩ => ⟨S64x1024, .f32⟩
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst : Ref sig .tc := ⟨.hbm, 27, rfl⟩
abbrev main_v8 : Ref sig .tc := ⟨.hbm, 28, rfl⟩
abbrev main_v9 : Ref sig .tc := ⟨.hbm, 29, rfl⟩
abbrev main_cst_0 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_1 : Ref sig .tc := ⟨.hbm, 40, rfl⟩
abbrev main_v19 : Ref sig .tc := ⟨.hbm, 41, rfl⟩
abbrev main_v20 : Ref sig .tc := ⟨.hbm, 42, rfl⟩
abbrev main_cst_2 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_3 : Ref sig .tc := ⟨.hbm, 59, rfl⟩
abbrev main_v36 : Ref sig .tc := ⟨.hbm, 60, rfl⟩
abbrev main_v37 : Ref sig .tc := ⟨.hbm, 61, rfl⟩
abbrev main_cst_4 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩

abbrev nD : Nat := 1
abbrev τ : Topo := Topo.v7x

variable {F : FTy → Type} [FloatOps F]

class Facts₀ : Prop where
  bcast_S64x512_S64x512x1_0_1 : S64x512.BroadcastsInDim S64x512x1 (![0, 1] : Fin 2 → Fin S64x512x1.rank)
  bcast_S_S64x1024x1 : S_.BroadcastsInDim S64x1024x1 (![] : Fin 0 → Fin S64x1024x1.rank)
  shapeCasts_S64x1024x1_S64x1024 : S64x1024x1.ShapeCasts S64x1024
  dot_S64x1024x1024_S64x1024x1_S64x1024x1_2_1_1_2_0_0_wf : DotDims.WF S64x1024x1024 S64x1024x1 S64x1024x1 [2] [1] [1] [2] [0] [0]
  dot_S64x1024x512_S64x512x1_S64x1024x1_2_1_1_2_0_0_wf : DotDims.WF S64x1024x512 S64x512x1 S64x1024x1 [2] [1] [1] [2] [0] [0]

variable [Facts₀]

def dot_S64x1024x1024_S64x1024x1_S64x1024x1_2_1_1_2_0_0 : DotDims S64x1024x1024 S64x1024x1 S64x1024x1 where
  lhsContracting := [2]
  rhsContracting := [1]
  lhsNonContracting := [1]
  rhsNonContracting := [2]
  lhsBatch := [0]
  rhsBatch := [0]
  wf := dot_S64x1024x1024_S64x1024x1_S64x1024x1_2_1_1_2_0_0_wf
def dot_S64x1024x512_S64x512x1_S64x1024x1_2_1_1_2_0_0 : DotDims S64x1024x512 S64x512x1 S64x1024x1 where
  lhsContracting := [2]
  rhsContracting := [1]
  lhsNonContracting := [1]
  rhsNonContracting := [2]
  lhsBatch := [0]
  rhsBatch := [0]
  wf := dot_S64x1024x512_S64x512x1_S64x1024x1_2_1_1_2_0_0_wf

class Facts : Prop extends Facts₀ where

variable [Facts]
-- ==== Proof.LibLstmCell.lean ====
/-
  One step of an LSTM cell, batch element by batch element, as a function of its parameter arrays on the
  extended reals. For batch element `b` and row `r`, each of the four gates has the pre-activation
      ((W_h · h0)_r + b_h,r) + (W_x · x)_r + b_x,r            (the sums over the whole contracted axis)
  and, with σ the logistic function `1 / (1 + e^(-z))`,
      i = σ(pre_i),  f = σ(pre_f),  g = tanh(pre_g),  o = σ(pre_o),
      c = f · c0 + i · g,          h = o · tanh c.
  The sizes (batch `B`, hidden `H`, input `I`) are variables: at `B = 1` this is what one grid point of a kernel
  that walks the batch computes from its blocks, at the full batch it is what a whole-array program computes, and a
  batch element's slice of the full arrays gives the same value as the full arrays at that batch element
  (`cellC_slice`, `cellH_slice`): every entry of the result depends on ONE batch element of every parameter.
-/
import Idealize.ShloMosaic.PureOps.Ideal
import Idealize.ShloMosaic.Lib.ValueIdx

noncomputable section

open scoped BigOperators

namespace Cert.LstmCell

open Idealize.ShloMosaic Idealize.ShloMosaic.ValueIdx

/-- The cell's parameter arrays: the previous hidden and cell states, the input as a column per batch element, and
    per gate (input, forget, cell candidate, output) a hidden-to-hidden matrix, an input-to-hidden matrix and their two
    bias columns. -/
structure Params (B H I : Nat) where
  h0 : FVec Ideal ⟨3, ![B, H, 1]⟩ .f32
  c0 : FVec Ideal ⟨3, ![B, H, 1]⟩ .f32
  x : FVec Ideal ⟨3, ![B, I, 1]⟩ .f32
  whi : FVec Ideal ⟨3, ![B, H, H]⟩ .f32
  wxi : FVec Ideal ⟨3, ![B, H, I]⟩ .f32
  whf : FVec Ideal ⟨3, ![B, H, H]⟩ .f32
  wxf : FVec Ideal ⟨3, ![B, H, I]⟩ .f32
  whg : FVec Ideal ⟨3, ![B, H, H]⟩ .f32
  wxg : FVec Ideal ⟨3, ![B, H, I]⟩ .f32
  who : FVec Ideal ⟨3, ![B, H, H]⟩ .f32
  wxo : FVec Ideal ⟨3, ![B, H, I]⟩ .f32
  bhi : FVec Ideal ⟨3, ![B, H, 1]⟩ .f32
  bxi : FVec Ideal ⟨3, ![B, H, 1]⟩ .f32
  bhf : FVec Ideal ⟨3, ![B, H, 1]⟩ .f32
  bxf : FVec Ideal ⟨3, ![B, H, 1]⟩ .f32
  bhg : FVec Ideal ⟨3, ![B, H, 1]⟩ .f32
  bxg : FVec Ideal ⟨3, ![B, H, 1]⟩ .f32
  bho : FVec Ideal ⟨3, ![B, H, 1]⟩ .f32
  bxo : FVec Ideal ⟨3, ![B, H, 1]⟩ .f32

variable {B H I : Nat}

/-- A gate's pre-activation at row `r` of batch element `b`: `((W_h · h)_r + b_h,r) + (W_x · x)_r + b_x,r`, added in
    this order. -/
def pre (Wh : FVec Ideal ⟨3, ![B, H, H]⟩ .f32) (bh : FVec Ideal ⟨3, ![B, H, 1]⟩ .f32)
    (Wx : FVec Ideal ⟨3, ![B, H, I]⟩ .f32) (bx : FVec Ideal ⟨3, ![B, H, 1]⟩ .f32)
    (h : FVec Ideal ⟨3, ![B, H, 1]⟩ .f32) (x : FVec Ideal ⟨3, ![B, I, 1]⟩ .f32) (b : Fin B) (r : Fin H) : EReal :=
  (((∑ k : Fin H, Wh (ix3 b r k) * h (ix3 b k (0 : Fin 1))) + bh (ix3 b r (0 : Fin 1)))
      + ∑ j : Fin I, Wx (ix3 b r j) * x (ix3 b j (0 : Fin 1))) + bx (ix3 b r (0 : Fin 1))

/-- The new cell state at row `r` of batch element `b`: `f · c0 + i · g`. -/
def cellC (p : Params B H I) (b : Fin B) (r : Fin H) : EReal :=
  Ideal.logistic (pre p.whf p.bhf p.wxf p.bxf p.h0 p.x b r) * p.c0 (ix3 b r (0 : Fin 1))
    + Ideal.logistic (pre p.whi p.bhi p.wxi p.bxi p.h0 p.x b r) * Ideal.tanh (pre p.whg p.bhg p.wxg p.bxg p.h0 p.x b r)

/-- The new hidden state at row `r` of batch element `b`: `o · tanh c`. -/
def cellH (p : Params B H I) (b : Fin B) (r : Fin H) : EReal :=
  Ideal.logistic (pre p.who p.bho p.wxo p.bxo p.h0 p.x b r) * Ideal.tanh (cellC p b r)

/-- The new cell state as a `[B, H, 1]` array. -/
def arrC (p : Params B H I) : FVec Ideal ⟨3, ![B, H, 1]⟩ .f32 := fun i => cellC p (i 0) (i 1)

/-- The new hidden state as a `[B, H, 1]` array. -/
def arrH (p : Params B H I) : FVec Ideal ⟨3, ![B, H, 1]⟩ .f32 := fun i => cellH p (i 0) (i 1)

/-- Batch element `b` of a `[B, n1, n2]` array, as a `[1, n1, n2]` array. -/
def slice {n1 n2 : Nat} (A : FVec Ideal ⟨3, ![B, n1, n2]⟩ .f32) (b : Fin B) : FVec Ideal ⟨3, ![1, n1, n2]⟩ .f32 :=
  fun y => A (ix3 b (y 1) (y 2))

/-- Batch element `b` of every parameter array. -/
def Params.slice (p : Params B H I) (b : Fin B) : Params 1 H I where
  h0 := LstmCell.slice p.h0 b
  c0 := LstmCell.slice p.c0 b
  x := LstmCell.slice p.x b
  whi := LstmCell.slice p.whi b
  wxi := LstmCell.slice p.wxi b
  whf := LstmCell.slice p.whf b
  wxf := LstmCell.slice p.wxf b
  whg := LstmCell.slice p.whg b
  wxg := LstmCell.slice p.wxg b
  who := LstmCell.slice p.who b
  wxo := LstmCell.slice p.wxo b
  bhi := LstmCell.slice p.bhi b
  bxi := LstmCell.slice p.bxi b
  bhf := LstmCell.slice p.bhf b
  bxf := LstmCell.slice p.bxf b
  bhg := LstmCell.slice p.bhg b
  bxg := LstmCell.slice p.bxg b
  bho := LstmCell.slice p.bho b
  bxo := LstmCell.slice p.bxo b

/-- The cell on batch element `b`'s slices is the cell on the whole arrays at batch element `b`: no entry of the
    result reads another batch element. -/
theorem cellC_slice (p : Params B H I) (b : Fin B) (z : Fin 1) (r : Fin H) : cellC (p.slice b) z r = cellC p b r := rfl

theorem cellH_slice (p : Params B H I) (b : Fin B) (z : Fin 1) (r : Fin H) : cellH (p.slice b) z r = cellH p b r := rfl

/-- The f32 word of 1.0 is the real number 1. -/
theorem ofBits_one : Ideal.ofBits .f32 0x3F800000#32 = 1 := by
  simp [Ideal.ofBits, Ideal.ieee, -EReal.coe_mul]; norm_num

/-- The logistic function spelled with the host's operations — `1 / (1 + exp (-z))` with both ones the f32 word of
    1.0 — is the logistic function. -/
theorem logistic_host (one₁ one₂ z : Ideal .f32) (h₁ : one₁ = FloatOps.ofBits .f32 0x3F800000#32)
    (h₂ : one₂ = FloatOps.ofBits .f32 0x3F800000#32) :
    FloatOps.hostDivf one₁ (FloatOps.addf one₂ (FloatOps.hostUnary .exp (FloatOps.hostNegf z))) = Ideal.logistic z := by
  subst h₁ h₂
  show Ideal.div (Ideal.ofBits .f32 0x3F800000#32) (Ideal.ofBits .f32 0x3F800000#32 + Ideal.exp (-z)) = _
  rw [ofBits_one]
  rfl

end Cert.LstmCell

end
-- ==== Proof.LibMatmulPlain.lean ====
/-
  Two general facts about matrix products at the ideal values.

  * A kernel's matrix product with the plain dimension numbers (rows by columns, one contracted axis, no batch axis)
    accumulated into the zero splat, read at entry (a, b), is the inner product of row `a` of the left factor with
    column `b` of the right one: `∑ c, A a c · B c b`.
  * On the extended reals a factor distributes over a sum of two NONNEGATIVE terms whatever the factor is (the two
    infinities of opposite sign cannot meet), so a weighted sum of such sums splits into the two weighted sums.
-/
import Idealize.ShloMosaic.Lib.StackMember
import Idealize.ShloMosaic.Lib.KernelVsHost
import Idealize.ShloMosaic.Lib.ValueIdx
import Idealize.ShloMosaic.PureOps.Ideal.Laws

noncomputable section

open scoped BigOperators

namespace Cert.LibMatmulPlain

open Idealize.ShloMosaic Idealize.ShloMosaic.ValueIdx

/-- A product with the plain dimension numbers accumulated into the zero splat, read at an entry: the inner product
    of a row of the left factor with a column of the right one. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- A factor distributes over a sum of two nonnegative extended reals, so a weighted sum of such sums splits. -/
theorem sum_mul_add_of_nonneg {ι : Type} [Fintype ι] (w A B : ι → EReal) (hA : ∀ k, 0 ≤ A k) (hB : ∀ k, 0 ≤ B k) :
    ∑ k, w k * (A k + B k) = ∑ k, w k * A k + ∑ k, w k * B k := by
  rw [← Finset.sum_add_distrib]
  exact Finset.sum_congr rfl fun k _ => EReal.left_distrib_of_nonneg (hA k) (hB k)

end Cert.LibMatmulPlain

end
-- ==== Proof.KernelCell.lean ====
/-
  What one grid point of the kernel computes, entry by entry. The body loads the blocks of ONE batch element — the
  previous states and the input as columns, four hidden-to-hidden and four input-to-hidden matrices, eight bias
  columns —, forms each gate's pre-activation as (W_h · h0 + b_h) + W_x · x + b_x with two matrix products into zero
  accumulators, applies the logistic function or tanh, and stores c = f · c0 + i · g and h = o · tanh c. Read at row
  `r` that is the LSTM cell of `LibLstmCell` at batch size one: a matrix product into the zero splat is the sum over the
  contracted axis, a cast between [1, n, m] and [n, m] keeps every entry, and everything else acts entry by entry.
-/
import proofs.«137506_j44495861186788_1_alg».proof.Proof.Gen.KernelIdeal.Skeleton
import proofs.«137506_j44495861186788_1_alg».proof.Proof.LibLstmCell
import proofs.«137506_j44495861186788_1_alg».proof.Proof.LibMatmulPlain
import Idealize.ShloMosaic.Lib.ValueLayout
import Idealize.ShloMosaic.Lib.ValueIdx

noncomputable section

open scoped BigOperators

namespace Cert.KernelIdeal.Cell

open Cert.KernelIdeal Cert.KernelIdeal.Gen Idealize.ShloMosaic Idealize.ShloMosaic.ValueIdx Cert.LstmCell

/-- The hidden-to-hidden product at an entry: row `a` of the matrix against the state column. -/
theorem mm_hh (A : FVec Ideal S1024x1024 .f32) (v : FVec Ideal S1024x1 .f32) (a : Fin 1024) (b : Fin 1) :
    matmul dot_S1024x1024_S1024x1_S1024x1_1_0_0_1_n_n none A v (constant (F := Ideal) S1024x1 .f32 0x00000000#32) (ix2 a b)
      = ∑ c : Fin 1024, A (ix2 a c) * v (ix2 c b) :=
  Cert.LibMatmulPlain.matmul_plain_zero_apply none A v a b

/-- The input-to-hidden product at an entry: row `a` of the matrix against the input column. -/
theorem mm_hx (A : FVec Ideal S1024x512 .f32) (v : FVec Ideal S512x1 .f32) (a : Fin 1024) (b : Fin 1) :
    matmul dot_S1024x512_S512x1_S1024x1_1_0_0_1_n_n none A v (constant (F := Ideal) S1024x1 .f32 0x00000000#32) (ix2 a b)
      = ∑ c : Fin 512, A (ix2 a c) * v (ix2 c b) :=
  Cert.LibMatmulPlain.matmul_plain_zero_apply none A v a b

/-- A gate's pre-activation as the body spells it, at row `r`: the cell's `pre` on the loaded blocks. -/
theorem gate_block (Wh : FVec Ideal S1x1024x1024 .f32) (bh : FVec Ideal S1x1024x1 .f32) (Wx : FVec Ideal S1x1024x512 .f32)
    (bx h : FVec Ideal S1x1024x1 .f32) (x : FVec Ideal S1x512x1 .f32) (r : Fin 1024) (q : Fin 1) :
    addf (addf (addf
        (matmul dot_S1024x1024_S1024x1_S1024x1_1_0_0_1_n_n none (shapeCast S1024x1024 Wh shapeCasts_S1x1024x1024_S1024x1024)
          (shapeCast S1024x1 h shapeCasts_S1x1024x1_S1024x1) (constant (F := Ideal) S1024x1 .f32 0x00000000#32))
        (shapeCast S1024x1 bh shapeCasts_S1x1024x1_S1024x1))
        (matmul dot_S1024x512_S512x1_S1024x1_1_0_0_1_n_n none (shapeCast S1024x512 Wx shapeCasts_S1x1024x512_S1024x512)
          (shapeCast S512x1 x shapeCasts_S1x512x1_S512x1) (constant (F := Ideal) S1024x1 .f32 0x00000000#32)))
        (shapeCast S1024x1 bx shapeCasts_S1x1024x1_S1024x1) (ix2 r q)
      = pre (B := 1) (H := 1024) (I := 512) Wh bh Wx bx h x 0 r := by
  obtain rfl : q = 0 := Subsingleton.elim _ _
  show ((matmul _ none _ _ _ (ix2 r (0 : Fin 1)) + shapeCast S1024x1 bh _ (ix2 r (0 : Fin 1)))
      + matmul _ none _ _ _ (ix2 r (0 : Fin 1))) + shapeCast S1024x1 bx _ (ix2 r (0 : Fin 1)) = _
  rw [mm_hh, mm_hx]
  simp only [shapeCast_1ab_ab_apply]
  rfl

/-! ## The body's named values, entry by entry -/

section
variable (x0 x1 : FVec Ideal S1x1024x1 .f32) (x2 : FVec Ideal S1x512x1 .f32)
  (wh : FVec Ideal S1x1024x1024 .f32) (wx : FVec Ideal S1x1024x512 .f32) (bh bx : FVec Ideal S1x1024x1 .f32)
  (r : Fin 1024) (q : Fin 1)

/-- The input gate: the logistic function of its pre-activation. -/
theorem gate_i_apply : k0_pay7 (F := Ideal) x0 x2 wh wx bh bx (ix2 r q) = Ideal.logistic (pre wh bh wx bx x0 x2 0 r) :=
  congrArg Ideal.logistic (gate_block wh bh wx bx x0 x2 r q)

/-- The forget gate. -/
theorem gate_f_apply : k0_pay10 (F := Ideal) (k0_pay8 x0 wh) (k0_pay9 x2 wx) bh bx (ix2 r q)
    = Ideal.logistic (pre wh bh wx bx x0 x2 0 r) :=
  congrArg Ideal.logistic (gate_block wh bh wx bx x0 x2 r q)

/-- The cell candidate: tanh of its pre-activation. -/
theorem gate_g_apply : k0_pay11 (F := Ideal) (k0_pay4 x0) (k0_pay6 x2) wh wx bh bx (ix2 r q)
    = Ideal.tanh (pre wh bh wx bx x0 x2 0 r) :=
  congrArg Ideal.tanh (gate_block wh bh wx bx x0 x2 r q)

/-- The output gate's pre-activation, which the body assembles from two named values and the last bias. -/
theorem gate_o_apply : addf (addf (k0_pay13 (F := Ideal) (k0_pay4 x0) wh bh) (k0_pay12 (k0_pay6 x2) wx))
      (shapeCast S1024x1 bx shapeCasts_S1x1024x1_S1024x1) (ix2 r q) = pre wh bh wx bx x0 x2 0 r :=
  gate_block wh bh wx bx x0 x2 r q

/-- The previous cell state as a column. -/
theorem c0_apply : k0_pay5 (F := Ideal) x1 (ix2 r q) = x1 (ix3 (0 : Fin 1) r q) :=
  shapeCast_1ab_ab_apply x1 _ r q

end

section
variable (v3 v19 v33 v47 v53 v56 : FVec Ideal S1024x1 .f32) (v58 : FVec Ideal S1x1024x1 .f32) (i : S1024x1.Idx)
  (z : Fin 1) (r : Fin 1024) (u : Fin 1)

/-- The state update `f · c0 + i · g`, entry by entry. -/
theorem update_apply : k0_pay1 (F := Ideal) v3 v19 v33 v47 i = v33 i * v3 i + v19 i * v47 i := rfl

/-- The stored cell state is the update with a leading unit axis. -/
theorem store_c_apply : k0_pay3 (F := Ideal) v3 v19 v33 v47 (ix3 z r u) = k0_pay1 v3 v19 v33 v47 (ix2 r u) := by
  unfold k0_pay3
  exact shapeCast_ab_1ab_apply _ _ z r u

/-- The stored hidden state `o · tanh c`, with a leading unit axis. -/
theorem store_h_apply : k0_pay2 (F := Ideal) v3 v19 v33 v47 v53 v56 v58 (ix3 z r u)
    = Ideal.logistic (addf (addf v56 v53) (shapeCast S1024x1 v58 shapeCasts_S1x1024x1_S1024x1) (ix2 r u))
      * Ideal.tanh (k0_pay1 v3 v19 v33 v47 (ix2 r u)) := by
  unfold k0_pay2
  exact shapeCast_ab_1ab_apply _ _ z r u

end

/-- The new cell state the body stores, at an entry of its [1, H, 1] block: the cell's `cellC` on the loaded
    blocks. -/
theorem stored_c (p : Params 1 1024 512) (j : S1x1024x1.Idx) :
    k0_pay3 (F := Ideal) (k0_pay5 p.c0) (k0_pay7 p.h0 p.x p.whi p.wxi p.bhi p.bxi)
        (k0_pay10 (k0_pay8 p.h0 p.whf) (k0_pay9 p.x p.wxf) p.bhf p.bxf)
        (k0_pay11 (k0_pay4 p.h0) (k0_pay6 p.x) p.whg p.wxg p.bhg p.bxg) j
      = cellC p 0 (j 1) := by
  obtain ⟨z, r, u, rfl⟩ : ∃ (z : Fin 1) (r : Fin 1024) (u : Fin 1), j = ix3 z r u := ⟨j 0, j 1, j 2, eq_ix3 j⟩
  obtain rfl : u = 0 := Subsingleton.elim _ _
  rw [store_c_apply, update_apply, gate_f_apply, gate_i_apply, gate_g_apply, c0_apply]
  rfl

/-- The new hidden state the body stores, at an entry of its [1, H, 1] block: the cell's `cellH` on the loaded
    blocks. -/
theorem stored_h (p : Params 1 1024 512) (j : S1x1024x1.Idx) :
    k0_pay2 (F := Ideal) (k0_pay5 p.c0) (k0_pay7 p.h0 p.x p.whi p.wxi p.bhi p.bxi)
        (k0_pay10 (k0_pay8 p.h0 p.whf) (k0_pay9 p.x p.wxf) p.bhf p.bxf)
        (k0_pay11 (k0_pay4 p.h0) (k0_pay6 p.x) p.whg p.wxg p.bhg p.bxg)
        (k0_pay12 (k0_pay6 p.x) p.wxo) (k0_pay13 (k0_pay4 p.h0) p.who p.bho) p.bxo j
      = cellH p 0 (j 1) := by
  obtain ⟨z, r, u, rfl⟩ : ∃ (z : Fin 1) (r : Fin 1024) (u : Fin 1), j = ix3 z r u := ⟨j 0, j 1, j 2, eq_ix3 j⟩
  obtain rfl : u = 0 := Subsingleton.elim _ _
  rw [store_h_apply, gate_o_apply, update_apply, gate_f_apply, gate_i_apply, gate_g_apply, c0_apply]
  rfl

end Cert.KernelIdeal.Cell

end
-- ==== Proof.KernelArrays.lean ====
/-
  From grid points to arrays. The grid walks the batch: point `t` stages batch element `t` of every operand — block
  index (t, 0, 0) of every window — and writes back batch element `t` of the two new states. So each input block is the
  slice of its array at batch element `t`, what the point writes back is the cell (`KernelCell`) on those slices, which
  is the cell on the whole arrays at batch element `t` (`LstmCell.cellC_slice`), and since every entry of a state array
  lies in the block of its own batch element the 64 blocks tile the array: after the region the state arrays are the
  cell's `arrC` and `arrH`. Around the region the program forms the input's [B, I, 1] column array before it and
  drops the trailing unit axis of the new hidden state after it.
-/
import proofs.«137506_j44495861186788_1_alg».proof.Proof.Gen.KernelIdeal.Frame
import proofs.«137506_j44495861186788_1_alg».proof.Proof.KernelCell
import Idealize.ShloMosaic.Lib.Pipeline.Value
import Idealize.ShloMosaic.Lib.StableHlo.Run

set_option maxRecDepth 16384

noncomputable section

namespace Cert.KernelIdeal.Arrays

open Cert.KernelIdeal Cert.KernelIdeal.Gen Cert.KernelIdeal.Cell Idealize.ShloMosaic Idealize.ShloMosaic.TcCoe Idealize.SL.Sem
open Idealize.ShloMosaic.ValueIdx Cert.LstmCell
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- The batch element a grid point works on: the point's number. -/
def batch (t : Fin cfg0.N) : Fin 64 := ⟨t.val, Nat.lt_of_lt_of_eq t.isLt N_0⟩

/-! ## The index maps, decided over the 64 points: every window's block index at point `t` is (t, 0, 0) -/

theorem idx_0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx_1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx_2 : ∀ t : Fin cfg0.N, win0_2.index t (0 : Fin 3) = t.val ∧ win0_2.index t (1 : Fin 3) = 0 ∧ win0_2.index t (2 : Fin 3) = 0 :=
  (by decide +kernel : ∀ t : Fin grid0.N, _)
theorem idx_3 : ∀ t : Fin cfg0.N, win0_3.index t (0 : Fin 3) = t.val ∧ win0_3.index t (1 : Fin 3) = 0 ∧ win0_3.index t (2 : Fin 3) = 0 :=
  (by decide +kernel : ∀ t : Fin grid0.N, _)
theorem idx_4 : ∀ t : Fin cfg0.N, win0_4.index t (0 : Fin 3) = t.val ∧ win0_4.index t (1 : Fin 3) = 0 ∧ win0_4.index t (2 : Fin 3) = 0 :=
  (by decide +kernel : ∀ t : Fin grid0.N, _)
theorem idx_5 : ∀ t : Fin cfg0.N, win0_5.index t (0 : Fin 3) = t.val ∧ win0_5.index t (1 : Fin 3) = 0 ∧ win0_5.index t (2 : Fin 3) = 0 :=
  (by decide +kernel : ∀ t : Fin grid0.N, _)
theorem idx_6 : ∀ t : Fin cfg0.N, win0_6.index t (0 : Fin 3) = t.val ∧ win0_6.index t (1 : Fin 3) = 0 ∧ win0_6.index t (2 : Fin 3) = 0 :=
  (by decide +kernel : ∀ t : Fin grid0.N, _)
theorem idx_7 : ∀ t : Fin cfg0.N, win0_7.index t (0 : Fin 3) = t.val ∧ win0_7.index t (1 : Fin 3) = 0 ∧ win0_7.index t (2 : Fin 3) = 0 :=
  (by decide +kernel : ∀ t : Fin grid0.N, _)
theorem idx_8 : ∀ t : Fin cfg0.N, win0_8.index t (0 : Fin 3) = t.val ∧ win0_8.index t (1 : Fin 3) = 0 ∧ win0_8.index t (2 : Fin 3) = 0 :=
  (by decide +kernel : ∀ t : Fin grid0.N, _)
theorem idx_9 : ∀ t : Fin cfg0.N, win0_9.index t (0 : Fin 3) = t.val ∧ win0_9.index t (1 : Fin 3) = 0 ∧ win0_9.index t (2 : Fin 3) = 0 :=
  (by decide +kernel : ∀ t : Fin grid0.N, _)
theorem idx_10 : ∀ t : Fin cfg0.N, win0_10.index t (0 : Fin 3) = t.val ∧ win0_10.index t (1 : Fin 3) = 0 ∧ win0_10.index t (2 : Fin 3) = 0 :=
  (by decide +kernel : ∀ t : Fin grid0.N, _)
theorem idx_11 : ∀ t : Fin cfg0.N, win0_11.index t (0 : Fin 3) = t.val ∧ win0_11.index t (1 : Fin 3) = 0 ∧ win0_11.index t (2 : Fin 3) = 0 :=
  (by decide +kernel : ∀ t : Fin grid0.N, _)
theorem idx_12 : ∀ t : Fin cfg0.N, win0_12.index t (0 : Fin 3) = t.val ∧ win0_12.index t (1 : Fin 3) = 0 ∧ win0_12.index t (2 : Fin 3) = 0 :=
  (by decide +kernel : ∀ t : Fin grid0.N, _)
theorem idx_13 : ∀ t : Fin cfg0.N, win0_13.index t (0 : Fin 3) = t.val ∧ win0_13.index t (1 : Fin 3) = 0 ∧ win0_13.index t (2 : Fin 3) = 0 :=
  (by decide +kernel : ∀ t : Fin grid0.N, _)
theorem idx_14 : ∀ t : Fin cfg0.N, win0_14.index t (0 : Fin 3) = t.val ∧ win0_14.index t (1 : Fin 3) = 0 ∧ win0_14.index t (2 : Fin 3) = 0 :=
  (by decide +kernel : ∀ t : Fin grid0.N, _)
theorem idx_15 : ∀ t : Fin cfg0.N, win0_15.index t (0 : Fin 3) = t.val ∧ win0_15.index t (1 : Fin 3) = 0 ∧ win0_15.index t (2 : Fin 3) = 0 :=
  (by decide +kernel : ∀ t : Fin grid0.N, _)
theorem idx_16 : ∀ t : Fin cfg0.N, win0_16.index t (0 : Fin 3) = t.val ∧ win0_16.index t (1 : Fin 3) = 0 ∧ win0_16.index t (2 : Fin 3) = 0 :=
  (by decide +kernel : ∀ t : Fin grid0.N, _)
theorem idx_17 : ∀ t : Fin cfg0.N, win0_17.index t (0 : Fin 3) = t.val ∧ win0_17.index t (1 : Fin 3) = 0 ∧ win0_17.index t (2 : Fin 3) = 0 :=
  (by decide +kernel : ∀ t : Fin grid0.N, _)
theorem idx_18 : ∀ t : Fin cfg0.N, win0_18.index t (0 : Fin 3) = t.val ∧ win0_18.index t (1 : Fin 3) = 0 ∧ win0_18.index t (2 : Fin 3) = 0 :=
  (by decide +kernel : ∀ t : Fin grid0.N, _)
theorem idx_19 : ∀ t : Fin cfg0.N, win0_19.index t (0 : Fin 3) = t.val ∧ win0_19.index t (1 : Fin 3) = 0 ∧ win0_19.index t (2 : Fin 3) = 0 :=
  (by decide +kernel : ∀ t : Fin grid0.N, _)
theorem idx_20 : ∀ t : Fin cfg0.N, win0_20.index t (0 : Fin 3) = t.val ∧ win0_20.index t (1 : Fin 3) = 0 ∧ win0_20.index t (2 : Fin 3) = 0 :=
  (by decide +kernel : ∀ t : Fin grid0.N, _)

/-! ## The cell's parameters as the region finds them, and each input block as a batch slice -/

/-- The parameter arrays when the region is entered. -/
def entryP (c : Dev nD) : Params 64 1024 512 where
  h0 := V m c main_arg1
  c0 := V m c main_arg2
  x := V m c main_v0
  whi := V m c main_arg3
  wxi := V m c main_arg4
  whf := V m c main_arg5
  wxf := V m c main_arg6
  whg := V m c main_arg7
  wxg := V m c main_arg8
  who := V m c main_arg9
  wxo := V m c main_arg10
  bhi := V m c main_arg11
  bxi := V m c main_arg12
  bhf := V m c main_arg13
  bxf := V m c main_arg14
  bhg := V m c main_arg15
  bxg := V m c main_arg16
  bho := V m c main_arg17
  bxo := V m c main_arg18

theorem iblk_0 (c : Dev nD) (t : Fin cfg0.N) :
    (iblk m c 0 t : FVec Ideal S1x1024x1 .f32) = slice (V m c main_arg1) (batch t) := by
  obtain ⟨e0, e1, e2⟩ := idx_0 t
  funext y
  have hy : (y 0).val < 1 := (y 0).isLt
  have hidx : ((cfg0.win 0).blk t).view.emb y = ix3 (n0 := 64) (n1 := 1024) (n2 := 1) (batch t) (y 1) (y 2) := by
    funext a; apply Fin.ext
    match a with
    | ⟨0, _⟩ => show win0_0.index t (0 : Fin 3) * 1 + 1 * (y 0).val = t.val; omega
    | ⟨1, _⟩ => show win0_0.index t (1 : Fin 3) * 1024 + 1 * (y 1).val = (y 1).val; omega
    | ⟨2, _⟩ => show win0_0.index t (2 : Fin 3) * 1 + 1 * (y 2).val = (y 2).val; omega
  show V m c main_arg1 (((cfg0.win 0).blk t).view.emb y) = V m c main_arg1 (ix3 (n0 := 64) (n1 := 1024) (n2 := 1) (batch t) (y 1) (y 2))
  rw [hidx]

theorem iblk_1 (c : Dev nD) (t : Fin cfg0.N) :
    (iblk m c 1 t : FVec Ideal S1x1024x1 .f32) = slice (V m c main_arg2) (batch t) := by
  obtain ⟨e0, e1, e2⟩ := idx_1 t
  funext y
  have hy : (y 0).val < 1 := (y 0).isLt
  have hidx : ((cfg0.win 1).blk t).view.emb y = ix3 (n0 := 64) (n1 := 1024) (n2 := 1) (batch t) (y 1) (y 2) := by
    funext a; apply Fin.ext
    match a with
    | ⟨0, _⟩ => show win0_1.index t (0 : Fin 3) * 1 + 1 * (y 0).val = t.val; omega
    | ⟨1, _⟩ => show win0_1.index t (1 : Fin 3) * 1024 + 1 * (y 1).val = (y 1).val; omega
    | ⟨2, _⟩ => show win0_1.index t (2 : Fin 3) * 1 + 1 * (y 2).val = (y 2).val; omega
  show V m c main_arg2 (((cfg0.win 1).blk t).view.emb y) = V m c main_arg2 (ix3 (n0 := 64) (n1 := 1024) (n2 := 1) (batch t) (y 1) (y 2))
  rw [hidx]

theorem iblk_2 (c : Dev nD) (t : Fin cfg0.N) :
    (iblk m c 2 t : FVec Ideal S1x512x1 .f32) = slice (V m c main_v0) (batch t) := by
  obtain ⟨e0, e1, e2⟩ := idx_2 t
  funext y
  have hy : (y 0).val < 1 := (y 0).isLt
  have hidx : ((cfg0.win 2).blk t).view.emb y = ix3 (n0 := 64) (n1 := 512) (n2 := 1) (batch t) (y 1) (y 2) := by
    funext a; apply Fin.ext
    match a with
    | ⟨0, _⟩ => show win0_2.index t (0 : Fin 3) * 1 + 1 * (y 0).val = t.val; omega
    | ⟨1, _⟩ => show win0_2.index t (1 : Fin 3) * 512 + 1 * (y 1).val = (y 1).val; omega
    | ⟨2, _⟩ => show win0_2.index t (2 : Fin 3) * 1 + 1 * (y 2).val = (y 2).val; omega
  show V m c main_v0 (((cfg0.win 2).blk t).view.emb y) = V m c main_v0 (ix3 (n0 := 64) (n1 := 512) (n2 := 1) (batch t) (y 1) (y 2))
  rw [hidx]

theorem iblk_3 (c : Dev nD) (t : Fin cfg0.N) :
    (iblk m c 3 t : FVec Ideal S1x1024x1024 .f32) = slice (V m c main_arg3) (batch t) := by
  obtain ⟨e0, e1, e2⟩ := idx_3 t
  funext y
  have hy : (y 0).val < 1 := (y 0).isLt
  have hidx : ((cfg0.win 3).blk t).view.emb y = ix3 (n0 := 64) (n1 := 1024) (n2 := 1024) (batch t) (y 1) (y 2) := by
    funext a; apply Fin.ext
    match a with
    | ⟨0, _⟩ => show win0_3.index t (0 : Fin 3) * 1 + 1 * (y 0).val = t.val; omega
    | ⟨1, _⟩ => show win0_3.index t (1 : Fin 3) * 1024 + 1 * (y 1).val = (y 1).val; omega
    | ⟨2, _⟩ => show win0_3.index t (2 : Fin 3) * 1024 + 1 * (y 2).val = (y 2).val; omega
  show V m c main_arg3 (((cfg0.win 3).blk t).view.emb y) = V m c main_arg3 (ix3 (n0 := 64) (n1 := 1024) (n2 := 1024) (batch t) (y 1) (y 2))
  rw [hidx]

theorem iblk_4 (c : Dev nD) (t : Fin cfg0.N) :
    (iblk m c 4 t : FVec Ideal S1x1024x512 .f32) = slice (V m c main_arg4) (batch t) := by
  obtain ⟨e0, e1, e2⟩ := idx_4 t
  funext y
  have hy : (y 0).val < 1 := (y 0).isLt
  have hidx : ((cfg0.win 4).blk t).view.emb y = ix3 (n0 := 64) (n1 := 1024) (n2 := 512) (batch t) (y 1) (y 2) := by
    funext a; apply Fin.ext
    match a with
    | ⟨0, _⟩ => show win0_4.index t (0 : Fin 3) * 1 + 1 * (y 0).val = t.val; omega
    | ⟨1, _⟩ => show win0_4.index t (1 : Fin 3) * 1024 + 1 * (y 1).val = (y 1).val; omega
    | ⟨2, _⟩ => show win0_4.index t (2 : Fin 3) * 512 + 1 * (y 2).val = (y 2).val; omega
  show V m c main_arg4 (((cfg0.win 4).blk t).view.emb y) = V m c main_arg4 (ix3 (n0 := 64) (n1 := 1024) (n2 := 512) (batch t) (y 1) (y 2))
  rw [hidx]

theorem iblk_5 (c : Dev nD) (t : Fin cfg0.N) :
    (iblk m c 5 t : FVec Ideal S1x1024x1024 .f32) = slice (V m c main_arg5) (batch t) := by
  obtain ⟨e0, e1, e2⟩ := idx_5 t
  funext y
  have hy : (y 0).val < 1 := (y 0).isLt
  have hidx : ((cfg0.win 5).blk t).view.emb y = ix3 (n0 := 64) (n1 := 1024) (n2 := 1024) (batch t) (y 1) (y 2) := by
    funext a; apply Fin.ext
    match a with
    | ⟨0, _⟩ => show win0_5.index t (0 : Fin 3) * 1 + 1 * (y 0).val = t.val; omega
    | ⟨1, _⟩ => show win0_5.index t (1 : Fin 3) * 1024 + 1 * (y 1).val = (y 1).val; omega
    | ⟨2, _⟩ => show win0_5.index t (2 : Fin 3) * 1024 + 1 * (y 2).val = (y 2).val; omega
  show V m c main_arg5 (((cfg0.win 5).blk t).view.emb y) = V m c main_arg5 (ix3 (n0 := 64) (n1 := 1024) (n2 := 1024) (batch t) (y 1) (y 2))
  rw [hidx]

theorem iblk_6 (c : Dev nD) (t : Fin cfg0.N) :
    (iblk m c 6 t : FVec Ideal S1x1024x512 .f32) = slice (V m c main_arg6) (batch t) := by
  obtain ⟨e0, e1, e2⟩ := idx_6 t
  funext y
  have hy : (y 0).val < 1 := (y 0).isLt
  have hidx : ((cfg0.win 6).blk t).view.emb y = ix3 (n0 := 64) (n1 := 1024) (n2 := 512) (batch t) (y 1) (y 2) := by
    funext a; apply Fin.ext
    match a with
    | ⟨0, _⟩ => show win0_6.index t (0 : Fin 3) * 1 + 1 * (y 0).val = t.val; omega
    | ⟨1, _⟩ => show win0_6.index t (1 : Fin 3) * 1024 + 1 * (y 1).val = (y 1).val; omega
    | ⟨2, _⟩ => show win0_6.index t (2 : Fin 3) * 512 + 1 * (y 2).val = (y 2).val; omega
  show V m c main_arg6 (((cfg0.win 6).blk t).view.emb y) = V m c main_arg6 (ix3 (n0 := 64) (n1 := 1024) (n2 := 512) (batch t) (y 1) (y 2))
  rw [hidx]

theorem iblk_7 (c : Dev nD) (t : Fin cfg0.N) :
    (iblk m c 7 t : FVec Ideal S1x1024x1024 .f32) = slice (V m c main_arg7) (batch t) := by
  obtain ⟨e0, e1, e2⟩ := idx_7 t
  funext y
  have hy : (y 0).val < 1 := (y 0).isLt
  have hidx : ((cfg0.win 7).blk t).view.emb y = ix3 (n0 := 64) (n1 := 1024) (n2 := 1024) (batch t) (y 1) (y 2) := by
    funext a; apply Fin.ext
    match a with
    | ⟨0, _⟩ => show win0_7.index t (0 : Fin 3) * 1 + 1 * (y 0).val = t.val; omega
    | ⟨1, _⟩ => show win0_7.index t (1 : Fin 3) * 1024 + 1 * (y 1).val = (y 1).val; omega
    | ⟨2, _⟩ => show win0_7.index t (2 : Fin 3) * 1024 + 1 * (y 2).val = (y 2).val; omega
  show V m c main_arg7 (((cfg0.win 7).blk t).view.emb y) = V m c main_arg7 (ix3 (n0 := 64) (n1 := 1024) (n2 := 1024) (batch t) (y 1) (y 2))
  rw [hidx]

theorem iblk_8 (c : Dev nD) (t : Fin cfg0.N) :
    (iblk m c 8 t : FVec Ideal S1x1024x512 .f32) = slice (V m c main_arg8) (batch t) := by
  obtain ⟨e0, e1, e2⟩ := idx_8 t
  funext y
  have hy : (y 0).val < 1 := (y 0).isLt
  have hidx : ((cfg0.win 8).blk t).view.emb y = ix3 (n0 := 64) (n1 := 1024) (n2 := 512) (batch t) (y 1) (y 2) := by
    funext a; apply Fin.ext
    match a with
    | ⟨0, _⟩ => show win0_8.index t (0 : Fin 3) * 1 + 1 * (y 0).val = t.val; omega
    | ⟨1, _⟩ => show win0_8.index t (1 : Fin 3) * 1024 + 1 * (y 1).val = (y 1).val; omega
    | ⟨2, _⟩ => show win0_8.index t (2 : Fin 3) * 512 + 1 * (y 2).val = (y 2).val; omega
  show V m c main_arg8 (((cfg0.win 8).blk t).view.emb y) = V m c main_arg8 (ix3 (n0 := 64) (n1 := 1024) (n2 := 512) (batch t) (y 1) (y 2))
  rw [hidx]

theorem iblk_9 (c : Dev nD) (t : Fin cfg0.N) :
    (iblk m c 9 t : FVec Ideal S1x1024x1024 .f32) = slice (V m c main_arg9) (batch t) := by
  obtain ⟨e0, e1, e2⟩ := idx_9 t
  funext y
  have hy : (y 0).val < 1 := (y 0).isLt
  have hidx : ((cfg0.win 9).blk t).view.emb y = ix3 (n0 := 64) (n1 := 1024) (n2 := 1024) (batch t) (y 1) (y 2) := by
    funext a; apply Fin.ext
    match a with
    | ⟨0, _⟩ => show win0_9.index t (0 : Fin 3) * 1 + 1 * (y 0).val = t.val; omega
    | ⟨1, _⟩ => show win0_9.index t (1 : Fin 3) * 1024 + 1 * (y 1).val = (y 1).val; omega
    | ⟨2, _⟩ => show win0_9.index t (2 : Fin 3) * 1024 + 1 * (y 2).val = (y 2).val; omega
  show V m c main_arg9 (((cfg0.win 9).blk t).view.emb y) = V m c main_arg9 (ix3 (n0 := 64) (n1 := 1024) (n2 := 1024) (batch t) (y 1) (y 2))
  rw [hidx]

theorem iblk_10 (c : Dev nD) (t : Fin cfg0.N) :
    (iblk m c 10 t : FVec Ideal S1x1024x512 .f32) = slice (V m c main_arg10) (batch t) := by
  obtain ⟨e0, e1, e2⟩ := idx_10 t
  funext y
  have hy : (y 0).val < 1 := (y 0).isLt
  have hidx : ((cfg0.win 10).blk t).view.emb y = ix3 (n0 := 64) (n1 := 1024) (n2 := 512) (batch t) (y 1) (y 2) := by
    funext a; apply Fin.ext
    match a with
    | ⟨0, _⟩ => show win0_10.index t (0 : Fin 3) * 1 + 1 * (y 0).val = t.val; omega
    | ⟨1, _⟩ => show win0_10.index t (1 : Fin 3) * 1024 + 1 * (y 1).val = (y 1).val; omega
    | ⟨2, _⟩ => show win0_10.index t (2 : Fin 3) * 512 + 1 * (y 2).val = (y 2).val; omega
  show V m c main_arg10 (((cfg0.win 10).blk t).view.emb y) = V m c main_arg10 (ix3 (n0 := 64) (n1 := 1024) (n2 := 512) (batch t) (y 1) (y 2))
  rw [hidx]

theorem iblk_11 (c : Dev nD) (t : Fin cfg0.N) :
    (iblk m c 11 t : FVec Ideal S1x1024x1 .f32) = slice (V m c main_arg11) (batch t) := by
  obtain ⟨e0, e1, e2⟩ := idx_11 t
  funext y
  have hy : (y 0).val < 1 := (y 0).isLt
  have hidx : ((cfg0.win 11).blk t).view.emb y = ix3 (n0 := 64) (n1 := 1024) (n2 := 1) (batch t) (y 1) (y 2) := by
    funext a; apply Fin.ext
    match a with
    | ⟨0, _⟩ => show win0_11.index t (0 : Fin 3) * 1 + 1 * (y 0).val = t.val; omega
    | ⟨1, _⟩ => show win0_11.index t (1 : Fin 3) * 1024 + 1 * (y 1).val = (y 1).val; omega
    | ⟨2, _⟩ => show win0_11.index t (2 : Fin 3) * 1 + 1 * (y 2).val = (y 2).val; omega
  show V m c main_arg11 (((cfg0.win 11).blk t).view.emb y) = V m c main_arg11 (ix3 (n0 := 64) (n1 := 1024) (n2 := 1) (batch t) (y 1) (y 2))
  rw [hidx]

theorem iblk_12 (c : Dev nD) (t : Fin cfg0.N) :
    (iblk m c 12 t : FVec Ideal S1x1024x1 .f32) = slice (V m c main_arg12) (batch t) := by
  obtain ⟨e0, e1, e2⟩ := idx_12 t
  funext y
  have hy : (y 0).val < 1 := (y 0).isLt
  have hidx : ((cfg0.win 12).blk t).view.emb y = ix3 (n0 := 64) (n1 := 1024) (n2 := 1) (batch t) (y 1) (y 2) := by
    funext a; apply Fin.ext
    match a with
    | ⟨0, _⟩ => show win0_12.index t (0 : Fin 3) * 1 + 1 * (y 0).val = t.val; omega
    | ⟨1, _⟩ => show win0_12.index t (1 : Fin 3) * 1024 + 1 * (y 1).val = (y 1).val; omega
    | ⟨2, _⟩ => show win0_12.index t (2 : Fin 3) * 1 + 1 * (y 2).val = (y 2).val; omega
  show V m c main_arg12 (((cfg0.win 12).blk t).view.emb y) = V m c main_arg12 (ix3 (n0 := 64) (n1 := 1024) (n2 := 1) (batch t) (y 1) (y 2))
  rw [hidx]

theorem iblk_13 (c : Dev nD) (t : Fin cfg0.N) :
    (iblk m c 13 t : FVec Ideal S1x1024x1 .f32) = slice (V m c main_arg13) (batch t) := by
  obtain ⟨e0, e1, e2⟩ := idx_13 t
  funext y
  have hy : (y 0).val < 1 := (y 0).isLt
  have hidx : ((cfg0.win 13).blk t).view.emb y = ix3 (n0 := 64) (n1 := 1024) (n2 := 1) (batch t) (y 1) (y 2) := by
    funext a; apply Fin.ext
    match a with
    | ⟨0, _⟩ => show win0_13.index t (0 : Fin 3) * 1 + 1 * (y 0).val = t.val; omega
    | ⟨1, _⟩ => show win0_13.index t (1 : Fin 3) * 1024 + 1 * (y 1).val = (y 1).val; omega
    | ⟨2, _⟩ => show win0_13.index t (2 : Fin 3) * 1 + 1 * (y 2).val = (y 2).val; omega
  show V m c main_arg13 (((cfg0.win 13).blk t).view.emb y) = V m c main_arg13 (ix3 (n0 := 64) (n1 := 1024) (n2 := 1) (batch t) (y 1) (y 2))
  rw [hidx]

theorem iblk_14 (c : Dev nD) (t : Fin cfg0.N) :
    (iblk m c 14 t : FVec Ideal S1x1024x1 .f32) = slice (V m c main_arg14) (batch t) := by
  obtain ⟨e0, e1, e2⟩ := idx_14 t
  funext y
  have hy : (y 0).val < 1 := (y 0).isLt
  have hidx : ((cfg0.win 14).blk t).view.emb y = ix3 (n0 := 64) (n1 := 1024) (n2 := 1) (batch t) (y 1) (y 2) := by
    funext a; apply Fin.ext
    match a with
    | ⟨0, _⟩ => show win0_14.index t (0 : Fin 3) * 1 + 1 * (y 0).val = t.val; omega
    | ⟨1, _⟩ => show win0_14.index t (1 : Fin 3) * 1024 + 1 * (y 1).val = (y 1).val; omega
    | ⟨2, _⟩ => show win0_14.index t (2 : Fin 3) * 1 + 1 * (y 2).val = (y 2).val; omega
  show V m c main_arg14 (((cfg0.win 14).blk t).view.emb y) = V m c main_arg14 (ix3 (n0 := 64) (n1 := 1024) (n2 := 1) (batch t) (y 1) (y 2))
  rw [hidx]

theorem iblk_15 (c : Dev nD) (t : Fin cfg0.N) :
    (iblk m c 15 t : FVec Ideal S1x1024x1 .f32) = slice (V m c main_arg15) (batch t) := by
  obtain ⟨e0, e1, e2⟩ := idx_15 t
  funext y
  have hy : (y 0).val < 1 := (y 0).isLt
  have hidx : ((cfg0.win 15).blk t).view.emb y = ix3 (n0 := 64) (n1 := 1024) (n2 := 1) (batch t) (y 1) (y 2) := by
    funext a; apply Fin.ext
    match a with
    | ⟨0, _⟩ => show win0_15.index t (0 : Fin 3) * 1 + 1 * (y 0).val = t.val; omega
    | ⟨1, _⟩ => show win0_15.index t (1 : Fin 3) * 1024 + 1 * (y 1).val = (y 1).val; omega
    | ⟨2, _⟩ => show win0_15.index t (2 : Fin 3) * 1 + 1 * (y 2).val = (y 2).val; omega
  show V m c main_arg15 (((cfg0.win 15).blk t).view.emb y) = V m c main_arg15 (ix3 (n0 := 64) (n1 := 1024) (n2 := 1) (batch t) (y 1) (y 2))
  rw [hidx]

theorem iblk_16 (c : Dev nD) (t : Fin cfg0.N) :
    (iblk m c 16 t : FVec Ideal S1x1024x1 .f32) = slice (V m c main_arg16) (batch t) := by
  obtain ⟨e0, e1, e2⟩ := idx_16 t
  funext y
  have hy : (y 0).val < 1 := (y 0).isLt
  have hidx : ((cfg0.win 16).blk t).view.emb y = ix3 (n0 := 64) (n1 := 1024) (n2 := 1) (batch t) (y 1) (y 2) := by
    funext a; apply Fin.ext
    match a with
    | ⟨0, _⟩ => show win0_16.index t (0 : Fin 3) * 1 + 1 * (y 0).val = t.val; omega
    | ⟨1, _⟩ => show win0_16.index t (1 : Fin 3) * 1024 + 1 * (y 1).val = (y 1).val; omega
    | ⟨2, _⟩ => show win0_16.index t (2 : Fin 3) * 1 + 1 * (y 2).val = (y 2).val; omega
  show V m c main_arg16 (((cfg0.win 16).blk t).view.emb y) = V m c main_arg16 (ix3 (n0 := 64) (n1 := 1024) (n2 := 1) (batch t) (y 1) (y 2))
  rw [hidx]

theorem iblk_17 (c : Dev nD) (t : Fin cfg0.N) :
    (iblk m c 17 t : FVec Ideal S1x1024x1 .f32) = slice (V m c main_arg17) (batch t) := by
  obtain ⟨e0, e1, e2⟩ := idx_17 t
  funext y
  have hy : (y 0).val < 1 := (y 0).isLt
  have hidx : ((cfg0.win 17).blk t).view.emb y = ix3 (n0 := 64) (n1 := 1024) (n2 := 1) (batch t) (y 1) (y 2) := by
    funext a; apply Fin.ext
    match a with
    | ⟨0, _⟩ => show win0_17.index t (0 : Fin 3) * 1 + 1 * (y 0).val = t.val; omega
    | ⟨1, _⟩ => show win0_17.index t (1 : Fin 3) * 1024 + 1 * (y 1).val = (y 1).val; omega
    | ⟨2, _⟩ => show win0_17.index t (2 : Fin 3) * 1 + 1 * (y 2).val = (y 2).val; omega
  show V m c main_arg17 (((cfg0.win 17).blk t).view.emb y) = V m c main_arg17 (ix3 (n0 := 64) (n1 := 1024) (n2 := 1) (batch t) (y 1) (y 2))
  rw [hidx]

theorem iblk_18 (c : Dev nD) (t : Fin cfg0.N) :
    (iblk m c 18 t : FVec Ideal S1x1024x1 .f32) = slice (V m c main_arg18) (batch t) := by
  obtain ⟨e0, e1, e2⟩ := idx_18 t
  funext y
  have hy : (y 0).val < 1 := (y 0).isLt
  have hidx : ((cfg0.win 18).blk t).view.emb y = ix3 (n0 := 64) (n1 := 1024) (n2 := 1) (batch t) (y 1) (y 2) := by
    funext a; apply Fin.ext
    match a with
    | ⟨0, _⟩ => show win0_18.index t (0 : Fin 3) * 1 + 1 * (y 0).val = t.val; omega
    | ⟨1, _⟩ => show win0_18.index t (1 : Fin 3) * 1024 + 1 * (y 1).val = (y 1).val; omega
    | ⟨2, _⟩ => show win0_18.index t (2 : Fin 3) * 1 + 1 * (y 2).val = (y 2).val; omega
  show V m c main_arg18 (((cfg0.win 18).blk t).view.emb y) = V m c main_arg18 (ix3 (n0 := 64) (n1 := 1024) (n2 := 1) (batch t) (y 1) (y 2))
  rw [hidx]

/-! ## The two outputs -/

/-- An index of the array is in point `t`'s block of the new cell state iff each coordinate is in the block's range. -/
theorem mem_blk20 (t : Fin cfg0.N) (i : S64x1024x1.Idx) :
    i ∈ ((cfg0.win 20).blk t).view.set ↔ ∀ a : Fin 3, win0_20.index t a * S1x1024x1.size a ≤ (i a).val ∧ (i a).val < win0_20.index t a * S1x1024x1.size a + S1x1024x1.size a := by
  show i ∈ ((View.whole main_v1_1).slice (win0_20.rect t)).set ↔ _
  rw [View.set_slice_whole, Rect.mem_set_unit]
  exact Iff.rfl

/-- What point `t` writes back to the new cell state is block `t` — batch element `t` — of the cell's array. -/
theorem flushed_20 (c : Dev nD) (t : Fin cfg0.N) :
    (dats m 0 c).flushed 20 t = ((cfg0.win 20).blk t).view.read (Elt Ideal) (arrC (entryP m c)) := by
  show (cfg0.win 20).cut (grid0.coords t) ((dats m 0 c).after 20 t) = _
  rw [after0_20]
  unfold out0_20
  rw [View.canon_unit_zero hz]
  simp only [View.ld_unit_zero (S := S1x1024x1) hz, View.ld_unit_zero (S := S1x512x1) hz,
    View.ld_unit_zero (S := S1x1024x1024) hz, View.ld_unit_zero (S := S1x1024x512) hz]
  rw [iblk_0 m c t, iblk_1 m c t, iblk_2 m c t, iblk_3 m c t, iblk_4 m c t, iblk_5 m c t, iblk_6 m c t, iblk_7 m c t, iblk_8 m c t, iblk_11 m c t, iblk_12 m c t, iblk_13 m c t, iblk_14 m c t, iblk_15 m c t, iblk_16 m c t]
  obtain ⟨e0, e1, e2⟩ := idx_20 t
  funext j
  have hj : (j 0).val < 1 := (j 0).isLt
  refine (stored_c ((entryP m c).slice (batch t)) ((cfg0.win 20).xinj (grid0.coords t) j)).trans ?_
  have h0 : ((((cfg0.win 20).blk t).view.emb j) 0 : Fin 64) = batch t :=
    Fin.ext (by show win0_20.index t (0 : Fin 3) * 1 + 1 * (j 0).val = t.val; omega)
  have h1 : ((((cfg0.win 20).blk t).view.emb j) 1 : Fin 1024) = (((cfg0.win 20).xinj (grid0.coords t) j) 1 : Fin 1024) :=
    Fin.ext (by show win0_20.index t (1 : Fin 3) * 1024 + 1 * (j 1).val = (j 1).val; omega)
  show _ = cellC (entryP m c) ((((cfg0.win 20).blk t).view.emb j) 0) ((((cfg0.win 20).blk t).view.emb j) 1)
  exact (cellC_slice (entryP m c) (batch t) 0 _).trans (congrArg₂ (cellC (entryP m c)) h0 h1).symm

/-- Every entry of the new cell state is in the block of the point of its batch element. -/
theorem cover_20 (i : S64x1024x1.Idx) :
    ∃ t : Fin cfg0.N, (cfg0.win 20).flush t = true ∧ i ∈ ((cfg0.win 20).blk t).view.set := by
  have hi0 : (i 0).val < 64 := (i 0).isLt
  have hi1 : (i 1).val < 1024 := (i 1).isLt
  have hi2 : (i 2).val < 1 := (i 2).isLt
  refine ⟨⟨(i 0).val, Nat.lt_of_lt_of_eq hi0 N_0.symm⟩, flush0_20 _, ?_⟩
  obtain ⟨e0, e1, e2⟩ := idx_20 ⟨(i 0).val, Nat.lt_of_lt_of_eq hi0 N_0.symm⟩
  rw [mem_blk20]
  intro a
  match a with
  | ⟨0, _⟩ => show win0_20.index _ (0 : Fin 3) * 1 ≤ (i 0).val ∧ (i 0).val < win0_20.index _ (0 : Fin 3) * 1 + 1; rw [e0]; show (i 0).val * 1 ≤ (i 0).val ∧ (i 0).val < (i 0).val * 1 + 1; omega
  | ⟨1, _⟩ => show win0_20.index _ (1 : Fin 3) * 1024 ≤ (i 1).val ∧ (i 1).val < win0_20.index _ (1 : Fin 3) * 1024 + 1024; rw [e1]; omega
  | ⟨2, _⟩ => show win0_20.index _ (2 : Fin 3) * 1 ≤ (i 2).val ∧ (i 2).val < win0_20.index _ (2 : Fin 3) * 1 + 1; rw [e2]; omega

/-- So after the region the new cell state is the cell's array of the arrays as the region found them. -/
theorem final_20 (c : Dev nD) : (dats m 0 c).arrAt 20 cfg0.N = arrC (entryP m c) :=
  (dats m 0 c).arrAt_eq_of_cover 20 (arrC (entryP m c)) (fun t _ => flushed_20 m c t) (cover_20)

/-- An index of the array is in point `t`'s block of the new hidden state iff each coordinate is in the block's range. -/
theorem mem_blk19 (t : Fin cfg0.N) (i : S64x1024x1.Idx) :
    i ∈ ((cfg0.win 19).blk t).view.set ↔ ∀ a : Fin 3, win0_19.index t a * S1x1024x1.size a ≤ (i a).val ∧ (i a).val < win0_19.index t a * S1x1024x1.size a + S1x1024x1.size a := by
  show i ∈ ((View.whole main_v1_0).slice (win0_19.rect t)).set ↔ _
  rw [View.set_slice_whole, Rect.mem_set_unit]
  exact Iff.rfl

/-- What point `t` writes back to the new hidden state is block `t` — batch element `t` — of the cell's array. -/
theorem flushed_19 (c : Dev nD) (t : Fin cfg0.N) :
    (dats m 0 c).flushed 19 t = ((cfg0.win 19).blk t).view.read (Elt Ideal) (arrH (entryP m c)) := by
  show (cfg0.win 19).cut (grid0.coords t) ((dats m 0 c).after 19 t) = _
  rw [after0_19]
  unfold out0_19
  rw [View.canon_unit_zero hz]
  simp only [View.ld_unit_zero (S := S1x1024x1) hz, View.ld_unit_zero (S := S1x512x1) hz,
    View.ld_unit_zero (S := S1x1024x1024) hz, View.ld_unit_zero (S := S1x1024x512) hz]
  rw [iblk_0 m c t, iblk_1 m c t, iblk_2 m c t, iblk_3 m c t, iblk_4 m c t, iblk_5 m c t, iblk_6 m c t, iblk_7 m c t, iblk_8 m c t, iblk_9 m c t, iblk_10 m c t, iblk_11 m c t, iblk_12 m c t, iblk_13 m c t, iblk_14 m c t, iblk_15 m c t, iblk_16 m c t, iblk_17 m c t, iblk_18 m c t]
  obtain ⟨e0, e1, e2⟩ := idx_19 t
  funext j
  have hj : (j 0).val < 1 := (j 0).isLt
  refine (stored_h ((entryP m c).slice (batch t)) ((cfg0.win 19).xinj (grid0.coords t) j)).trans ?_
  have h0 : ((((cfg0.win 19).blk t).view.emb j) 0 : Fin 64) = batch t :=
    Fin.ext (by show win0_19.index t (0 : Fin 3) * 1 + 1 * (j 0).val = t.val; omega)
  have h1 : ((((cfg0.win 19).blk t).view.emb j) 1 : Fin 1024) = (((cfg0.win 19).xinj (grid0.coords t) j) 1 : Fin 1024) :=
    Fin.ext (by show win0_19.index t (1 : Fin 3) * 1024 + 1 * (j 1).val = (j 1).val; omega)
  show _ = cellH (entryP m c) ((((cfg0.win 19).blk t).view.emb j) 0) ((((cfg0.win 19).blk t).view.emb j) 1)
  exact (cellH_slice (entryP m c) (batch t) 0 _).trans (congrArg₂ (cellH (entryP m c)) h0 h1).symm

/-- Every entry of the new hidden state is in the block of the point of its batch element. -/
theorem cover_19 (i : S64x1024x1.Idx) :
    ∃ t : Fin cfg0.N, (cfg0.win 19).flush t = true ∧ i ∈ ((cfg0.win 19).blk t).view.set := by
  have hi0 : (i 0).val < 64 := (i 0).isLt
  have hi1 : (i 1).val < 1024 := (i 1).isLt
  have hi2 : (i 2).val < 1 := (i 2).isLt
  refine ⟨⟨(i 0).val, Nat.lt_of_lt_of_eq hi0 N_0.symm⟩, flush0_19 _, ?_⟩
  obtain ⟨e0, e1, e2⟩ := idx_19 ⟨(i 0).val, Nat.lt_of_lt_of_eq hi0 N_0.symm⟩
  rw [mem_blk19]
  intro a
  match a with
  | ⟨0, _⟩ => show win0_19.index _ (0 : Fin 3) * 1 ≤ (i 0).val ∧ (i 0).val < win0_19.index _ (0 : Fin 3) * 1 + 1; rw [e0]; show (i 0).val * 1 ≤ (i 0).val ∧ (i 0).val < (i 0).val * 1 + 1; omega
  | ⟨1, _⟩ => show win0_19.index _ (1 : Fin 3) * 1024 ≤ (i 1).val ∧ (i 1).val < win0_19.index _ (1 : Fin 3) * 1024 + 1024; rw [e1]; omega
  | ⟨2, _⟩ => show win0_19.index _ (2 : Fin 3) * 1 ≤ (i 2).val ∧ (i 2).val < win0_19.index _ (2 : Fin 3) * 1 + 1; rw [e2]; omega

/-- So after the region the new hidden state is the cell's array of the arrays as the region found them. -/
theorem final_19 (c : Dev nD) : (dats m 0 c).arrAt 19 cfg0.N = arrH (entryP m c) :=
  (dats m 0 c).arrAt_eq_of_cover 19 (arrH (entryP m c)) (fun t _ => flushed_19 m c t) (cover_19)

end Cert.KernelIdeal.Arrays

end
-- ==== Proof.KernelRun.lean ====
/-
  The kernel's run, re-posted: every weakly fair execution of the whole program — the input's column array formed,
  the region run over the batch, the new hidden state's trailing unit axis dropped — ends with its three results at the
  cell's arrays of its own arguments, and the arguments unchanged.
-/
import proofs.«137506_j44495861186788_1_alg».proof.Proof.KernelArrays

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.ValueIdx Cert.LstmCell
open Idealize.ShloMosaic.Pipeline (Dat)

variable (m : (ℓ : Loc nD τ sig) → Buf (Elt Ideal) ℓ) (ρ : Dev nD → PrngReg)

/-- The cell's parameters as core `c` holds them when the program starts: its arguments, the input as the column
    array the first operation forms from it. -/
def memP (c : Dev nD) : Params 64 1024 512 where
  h0 := m ((c : Thread nD τ).loc main_arg1)
  c0 := m ((c : Thread nD τ).loc main_arg2)
  x := broadcastInDim S64x512x1 ![0, 1] bcast_S64x512_S64x512x1_0_1 (m ((c : Thread nD τ).loc main_arg0))
  whi := m ((c : Thread nD τ).loc main_arg3)
  wxi := m ((c : Thread nD τ).loc main_arg4)
  whf := m ((c : Thread nD τ).loc main_arg5)
  wxf := m ((c : Thread nD τ).loc main_arg6)
  whg := m ((c : Thread nD τ).loc main_arg7)
  wxg := m ((c : Thread nD τ).loc main_arg8)
  who := m ((c : Thread nD τ).loc main_arg9)
  wxo := m ((c : Thread nD τ).loc main_arg10)
  bhi := m ((c : Thread nD τ).loc main_arg11)
  bxi := m ((c : Thread nD τ).loc main_arg12)
  bhf := m ((c : Thread nD τ).loc main_arg13)
  bxf := m ((c : Thread nD τ).loc main_arg14)
  bhg := m ((c : Thread nD τ).loc main_arg15)
  bxg := m ((c : Thread nD τ).loc main_arg16)
  bho := m ((c : Thread nD τ).loc main_arg17)
  bxo := m ((c : Thread nD τ).loc main_arg18)

/-- The operation before the region leaves the input's column array where the region stages it from. -/
theorem entry_x (c : Dev nD) : (V m c main_v0 : FVec Ideal S64x512x1 .f32)
    = broadcastInDim S64x512x1 ![0, 1] bcast_S64x512_S64x512x1_0_1 (m ((c : Thread nD τ).loc main_arg0)) := by
  show StableHlo.after hostOps0 (fun b => m (c, b)) (Proc.devRef .tc main_v0) = _
  after_results

/-- So the region finds the parameters the program started with. -/
theorem entryP_eq (c : Dev nD) : entryP m c = memP m c := by
  unfold entryP memP
  rw [entry_x m c, V_main_arg1 m c, V_main_arg2 m c, V_main_arg3 m c, V_main_arg4 m c, V_main_arg5 m c, V_main_arg6 m c, V_main_arg7 m c, V_main_arg8 m c, V_main_arg9 m c, V_main_arg10 m c, V_main_arg11 m c, V_main_arg12 m c, V_main_arg13 m c, V_main_arg14 m c, V_main_arg15 m c, V_main_arg16 m c, V_main_arg17 m c, V_main_arg18 m c]

/-- The operation after the region drops the trailing unit axis of the new hidden state. -/
theorem tail_x (c : Dev nD) : Pipeline.afterTail₀ cfgs (dats m) 0 (V0 m) [hostOps1] c main_v2
    = shapeCast S64x1024 (arrH (entryP m c)) shapeCasts_S64x1024x1_S64x1024 := by
  unfold Pipeline.afterTail₀
  show StableHlo.after hostOps1 _ (Proc.devRef .tc main_v2) = _
  after_results
  exact congrArg (fun X => shapeCast S64x1024 X shapeCasts_S64x1024x1_S64x1024)
    ((Pipeline.withArrays_arr spec0 launch0.win.arr_inj c _ _ 19).trans (final_19 m c))

/-! ## The frame run's post, read -/

theorem post_x (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_v2) = shapeCast S64x1024 (arrH (memP m c)) shapeCasts_S64x1024x1_S64x1024 :=
  ((h c).2 main_v2 (Pipeline.mem_restRefs_of main_v2 (by decide) (by decide))).trans
    ((tail_x m c).trans (by rw [entryP_eq]))

theorem post_h (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_v1_0) = arrH (memP m c) :=
  ((h c).1 19).trans ((final_19 m c).trans (by rw [entryP_eq]))

theorem post_c (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_v1_1) = arrC (memP m c) :=
  ((h c).1 20).trans ((final_20 m c).trans (by rw [entryP_eq]))

set_option maxHeartbeats 1600000 in
/-- The arguments end as launched: the input by the operations around the region, which do not write it, every other
    argument because its window is only ever fetched. -/
theorem kept (r : PUnit × MemSt nD τ sig (Elt Ideal)) (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  ⟨((h c).2 main_arg0 (Pipeline.mem_restRefs_of main_arg0 (by decide) (by decide))).trans (W_main_arg0 m (dats m) c),
    ((h c).1 0).trans (((dats m 0 c).arrAt_in 0 rfl _).trans ((A_eq m c 0).trans (V_main_arg1 m c))),
    ((h c).1 1).trans (((dats m 0 c).arrAt_in 1 rfl _).trans ((A_eq m c 1).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c))),
    ((h c).1 7).trans (((dats m 0 c).arrAt_in 7 rfl _).trans ((A_eq m c 7).trans (V_main_arg7 m c))),
    ((h c).1 8).trans (((dats m 0 c).arrAt_in 8 rfl _).trans ((A_eq m c 8).trans (V_main_arg8 m c))),
    ((h c).1 9).trans (((dats m 0 c).arrAt_in 9 rfl _).trans ((A_eq m c 9).trans (V_main_arg9 m c))),
    ((h c).1 10).trans (((dats m 0 c).arrAt_in 10 rfl _).trans ((A_eq m c 10).trans (V_main_arg10 m c))),
    ((h c).1 11).trans (((dats m 0 c).arrAt_in 11 rfl _).trans ((A_eq m c 11).trans (V_main_arg11 m c))),
    ((h c).1 12).trans (((dats m 0 c).arrAt_in 12 rfl _).trans ((A_eq m c 12).trans (V_main_arg12 m c))),
    ((h c).1 13).trans (((dats m 0 c).arrAt_in 13 rfl _).trans ((A_eq m c 13).trans (V_main_arg13 m c))),
    ((h c).1 14).trans (((dats m 0 c).arrAt_in 14 rfl _).trans ((A_eq m c 14).trans (V_main_arg14 m c))),
    ((h c).1 15).trans (((dats m 0 c).arrAt_in 15 rfl _).trans ((A_eq m c 15).trans (V_main_arg15 m c))),
    ((h c).1 16).trans (((dats m 0 c).arrAt_in 16 rfl _).trans ((A_eq m c 16).trans (V_main_arg16 m c))),
    ((h c).1 17).trans (((dats m 0 c).arrAt_in 17 rfl _).trans ((A_eq m c 17).trans (V_main_arg17 m c))),
    ((h c).1 18).trans (((dats m 0 c).arrAt_in 18 rfl _).trans ((A_eq m c 18).trans (V_main_arg18 m c)))⟩

theorem run : θ_run defs (onTc (τ := τ) (main (F := Ideal))) ⟨m, fun _ => 0, ρ⟩ fun r => ∀ c : Dev nD,
      r.2.mem ((c.tc : Thread nD τ).loc main_v2) = shapeCast S64x1024 (arrH (memP m c)) shapeCasts_S64x1024x1_S64x1024
      ∧ r.2.mem ((c.tc : Thread nD τ).loc main_v1_0) = arrH (memP m c)
      ∧ r.2.mem ((c.tc : Thread nD τ).loc main_v1_1) = arrC (memP m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c => ⟨post_x m r h c, post_h m r h c, post_c m r h c, kept m r h c⟩) (run_main m ρ)

end Cert.KernelIdeal.Arrays

end
-- ==== Proof.RefCell.lean ====
/-
  The reference, entry by entry. Its program is the cell written with whole-array operations: per gate two batched
  matrix products (batch axis 0, the matrix's last axis against the column's middle axis) and two bias additions, the
  logistic function spelled `1 / (1 + exp (-z))`, tanh, and the two products and the sum of the state update. Read at
  entry (b, r, 0) through the generated one-operation-at-a-time lemmas, a batched product is the sum over the contracted
  axis within batch element `b`, and the results are the cell's `arrC` and `arrH` of the reference's arguments, the input
  entering as the [B, I, 1] column array the program itself forms from it.
-/
import proofs.«137506_j44495861186788_1_alg».proof.Proof.Gen.ReferenceIdeal.Read
import proofs.«137506_j44495861186788_1_alg».proof.Proof.LibLstmCell

noncomputable section

open scoped BigOperators

namespace Cert.ReferenceIdeal.Cell

open Cert.ReferenceIdeal Cert.ReferenceIdeal.Read Idealize.ShloMosaic Idealize.ShloMosaic.ValueIdx Cert.LstmCell

/-- Two indices of a rank-3 array with the same three coordinates are equal. -/
macro "idx3" : tactic =>
  `(tactic| (funext a; match a with | ⟨0, _⟩ => rfl | ⟨1, _⟩ => rfl | ⟨2, _⟩ => rfl))

/-- The cell's parameters as the reference holds them: its arguments in order, the input as the column array of its
    first operation. -/
def params (x0 : FVec Ideal S64x512 .f32) (x1 x2 : FVec Ideal S64x1024x1 .f32) (x3 : FVec Ideal S64x1024x1024 .f32) (x4 : FVec Ideal S64x1024x512 .f32) (x5 : FVec Ideal S64x1024x1024 .f32) (x6 : FVec Ideal S64x1024x512 .f32) (x7 : FVec Ideal S64x1024x1024 .f32) (x8 : FVec Ideal S64x1024x512 .f32) (x9 : FVec Ideal S64x1024x1024 .f32) (x10 : FVec Ideal S64x1024x512 .f32) (x11 x12 x13 x14 x15 x16 x17 x18 : FVec Ideal S64x1024x1 .f32) : Params 64 1024 512 where
  h0 := x1
  c0 := x2
  x := val_main_v0 (F := Ideal) x0
  whi := x3
  wxi := x4
  whf := x5
  wxf := x6
  whg := x7
  wxg := x8
  who := x9
  wxo := x10
  bhi := x11
  bxi := x12
  bhf := x13
  bxf := x14
  bhg := x15
  bxg := x16
  bho := x17
  bxo := x18

/-- The i gate's pre-activation as the reference computes it — two batched matrix products and the two bias
    additions, in the cell's order — at row `r` of batch element `b`. -/
theorem pre_i (x0 : FVec Ideal S64x512 .f32) (x1 x2 : FVec Ideal S64x1024x1 .f32) (x3 : FVec Ideal S64x1024x1024 .f32) (x4 : FVec Ideal S64x1024x512 .f32) (x5 : FVec Ideal S64x1024x1024 .f32) (x6 : FVec Ideal S64x1024x512 .f32) (x7 : FVec Ideal S64x1024x1024 .f32) (x8 : FVec Ideal S64x1024x512 .f32) (x9 : FVec Ideal S64x1024x1024 .f32) (x10 : FVec Ideal S64x1024x512 .f32) (x11 x12 x13 x14 x15 x16 x17 x18 : FVec Ideal S64x1024x1 .f32) (b : Fin 64) (r : Fin 1024) :
    val_main_v5 (F := Ideal) x0 x1 x3 x4 x11 x12 (ix3 b r (0 : Fin 1))
      = pre x3 x11 x4 x12 x1 (val_main_v0 (F := Ideal) x0) b r := by
  rw [val_main_v5_apply, val_main_v4_apply, val_main_v2_apply, val_main_v1_apply, val_main_v3_apply]
  have e1 : ∀ k, lidx_main_v1 (ix3 b r (0 : Fin 1)) k = ix3 b r k := fun k => by idx3
  have e2 : ∀ k, ridx_main_v1 (ix3 b r (0 : Fin 1)) k = ix3 b k (0 : Fin 1) := fun k => by idx3
  have e3 : ∀ k, lidx_main_v3 (ix3 b r (0 : Fin 1)) k = ix3 b r k := fun k => by idx3
  have e4 : ∀ k, ridx_main_v3 (ix3 b r (0 : Fin 1)) k = ix3 b k (0 : Fin 1) := fun k => by idx3
  simp only [e1, e2, e3, e4]
  rfl

/-- The f gate's pre-activation as the reference computes it — two batched matrix products and the two bias
    additions, in the cell's order — at row `r` of batch element `b`. -/
theorem pre_f (x0 : FVec Ideal S64x512 .f32) (x1 x2 : FVec Ideal S64x1024x1 .f32) (x3 : FVec Ideal S64x1024x1024 .f32) (x4 : FVec Ideal S64x1024x512 .f32) (x5 : FVec Ideal S64x1024x1024 .f32) (x6 : FVec Ideal S64x1024x512 .f32) (x7 : FVec Ideal S64x1024x1024 .f32) (x8 : FVec Ideal S64x1024x512 .f32) (x9 : FVec Ideal S64x1024x1024 .f32) (x10 : FVec Ideal S64x1024x512 .f32) (x11 x12 x13 x14 x15 x16 x17 x18 : FVec Ideal S64x1024x1 .f32) (b : Fin 64) (r : Fin 1024) :
    val_main_v16 (F := Ideal) x0 x1 x5 x6 x13 x14 (ix3 b r (0 : Fin 1))
      = pre x5 x13 x6 x14 x1 (val_main_v0 (F := Ideal) x0) b r := by
  rw [val_main_v16_apply, val_main_v15_apply, val_main_v13_apply, val_main_v12_apply, val_main_v14_apply]
  have e1 : ∀ k, lidx_main_v12 (ix3 b r (0 : Fin 1)) k = ix3 b r k := fun k => by idx3
  have e2 : ∀ k, ridx_main_v12 (ix3 b r (0 : Fin 1)) k = ix3 b k (0 : Fin 1) := fun k => by idx3
  have e3 : ∀ k, lidx_main_v14 (ix3 b r (0 : Fin 1)) k = ix3 b r k := fun k => by idx3
  have e4 : ∀ k, ridx_main_v14 (ix3 b r (0 : Fin 1)) k = ix3 b k (0 : Fin 1) := fun k => by idx3
  simp only [e1, e2, e3, e4]
  rfl

/-- The g gate's pre-activation as the reference computes it — two batched matrix products and the two bias
    additions, in the cell's order — at row `r` of batch element `b`. -/
theorem pre_g (x0 : FVec Ideal S64x512 .f32) (x1 x2 : FVec Ideal S64x1024x1 .f32) (x3 : FVec Ideal S64x1024x1024 .f32) (x4 : FVec Ideal S64x1024x512 .f32) (x5 : FVec Ideal S64x1024x1024 .f32) (x6 : FVec Ideal S64x1024x512 .f32) (x7 : FVec Ideal S64x1024x1024 .f32) (x8 : FVec Ideal S64x1024x512 .f32) (x9 : FVec Ideal S64x1024x1024 .f32) (x10 : FVec Ideal S64x1024x512 .f32) (x11 x12 x13 x14 x15 x16 x17 x18 : FVec Ideal S64x1024x1 .f32) (b : Fin 64) (r : Fin 1024) :
    val_main_v27 (F := Ideal) x0 x1 x7 x8 x15 x16 (ix3 b r (0 : Fin 1))
      = pre x7 x15 x8 x16 x1 (val_main_v0 (F := Ideal) x0) b r := by
  rw [val_main_v27_apply, val_main_v26_apply, val_main_v24_apply, val_main_v23_apply, val_main_v25_apply]
  have e1 : ∀ k, lidx_main_v23 (ix3 b r (0 : Fin 1)) k = ix3 b r k := fun k => by idx3
  have e2 : ∀ k, ridx_main_v23 (ix3 b r (0 : Fin 1)) k = ix3 b k (0 : Fin 1) := fun k => by idx3
  have e3 : ∀ k, lidx_main_v25 (ix3 b r (0 : Fin 1)) k = ix3 b r k := fun k => by idx3
  have e4 : ∀ k, ridx_main_v25 (ix3 b r (0 : Fin 1)) k = ix3 b k (0 : Fin 1) := fun k => by idx3
  simp only [e1, e2, e3, e4]
  rfl

/-- The o gate's pre-activation as the reference computes it — two batched matrix products and the two bias
    additions, in the cell's order — at row `r` of batch element `b`. -/
theorem pre_o (x0 : FVec Ideal S64x512 .f32) (x1 x2 : FVec Ideal S64x1024x1 .f32) (x3 : FVec Ideal S64x1024x1024 .f32) (x4 : FVec Ideal S64x1024x512 .f32) (x5 : FVec Ideal S64x1024x1024 .f32) (x6 : FVec Ideal S64x1024x512 .f32) (x7 : FVec Ideal S64x1024x1024 .f32) (x8 : FVec Ideal S64x1024x512 .f32) (x9 : FVec Ideal S64x1024x1024 .f32) (x10 : FVec Ideal S64x1024x512 .f32) (x11 x12 x13 x14 x15 x16 x17 x18 : FVec Ideal S64x1024x1 .f32) (b : Fin 64) (r : Fin 1024) :
    val_main_v33 (F := Ideal) x0 x1 x9 x10 x17 x18 (ix3 b r (0 : Fin 1))
      = pre x9 x17 x10 x18 x1 (val_main_v0 (F := Ideal) x0) b r := by
  rw [val_main_v33_apply, val_main_v32_apply, val_main_v30_apply, val_main_v29_apply, val_main_v31_apply]
  have e1 : ∀ k, lidx_main_v29 (ix3 b r (0 : Fin 1)) k = ix3 b r k := fun k => by idx3
  have e2 : ∀ k, ridx_main_v29 (ix3 b r (0 : Fin 1)) k = ix3 b k (0 : Fin 1) := fun k => by idx3
  have e3 : ∀ k, lidx_main_v31 (ix3 b r (0 : Fin 1)) k = ix3 b r k := fun k => by idx3
  have e4 : ∀ k, ridx_main_v31 (ix3 b r (0 : Fin 1)) k = ix3 b k (0 : Fin 1) := fun k => by idx3
  simp only [e1, e2, e3, e4]
  rfl

/-- The i gate's activation: the reference's `1 / (1 + exp (-z))` is the logistic function of its pre-activation. -/
theorem sig_i (x0 : FVec Ideal S64x512 .f32) (x1 x2 : FVec Ideal S64x1024x1 .f32) (x3 : FVec Ideal S64x1024x1024 .f32) (x4 : FVec Ideal S64x1024x512 .f32) (x5 : FVec Ideal S64x1024x1024 .f32) (x6 : FVec Ideal S64x1024x512 .f32) (x7 : FVec Ideal S64x1024x1024 .f32) (x8 : FVec Ideal S64x1024x512 .f32) (x9 : FVec Ideal S64x1024x1024 .f32) (x10 : FVec Ideal S64x1024x512 .f32) (x11 x12 x13 x14 x15 x16 x17 x18 : FVec Ideal S64x1024x1 .f32) (i : S64x1024x1.Idx) :
    val_main_v11 (F := Ideal) x0 x1 x3 x4 x11 x12 i = Ideal.logistic (val_main_v5 (F := Ideal) x0 x1 x3 x4 x11 x12 i) := by
  rw [val_main_v11_apply, val_main_v9_apply, val_main_v7_apply, val_main_v6_apply]
  exact logistic_host _ _ _ ((val_main_v10_apply i).trans (val_main_cst_0_apply _)) ((val_main_v8_apply i).trans (val_main_cst_apply _))

/-- The f gate's activation: the reference's `1 / (1 + exp (-z))` is the logistic function of its pre-activation. -/
theorem sig_f (x0 : FVec Ideal S64x512 .f32) (x1 x2 : FVec Ideal S64x1024x1 .f32) (x3 : FVec Ideal S64x1024x1024 .f32) (x4 : FVec Ideal S64x1024x512 .f32) (x5 : FVec Ideal S64x1024x1024 .f32) (x6 : FVec Ideal S64x1024x512 .f32) (x7 : FVec Ideal S64x1024x1024 .f32) (x8 : FVec Ideal S64x1024x512 .f32) (x9 : FVec Ideal S64x1024x1024 .f32) (x10 : FVec Ideal S64x1024x512 .f32) (x11 x12 x13 x14 x15 x16 x17 x18 : FVec Ideal S64x1024x1 .f32) (i : S64x1024x1.Idx) :
    val_main_v22 (F := Ideal) x0 x1 x5 x6 x13 x14 i = Ideal.logistic (val_main_v16 (F := Ideal) x0 x1 x5 x6 x13 x14 i) := by
  rw [val_main_v22_apply, val_main_v20_apply, val_main_v18_apply, val_main_v17_apply]
  exact logistic_host _ _ _ ((val_main_v21_apply i).trans (val_main_cst_2_apply _)) ((val_main_v19_apply i).trans (val_main_cst_1_apply _))

/-- The o gate's activation: the reference's `1 / (1 + exp (-z))` is the logistic function of its pre-activation. -/
theorem sig_o (x0 : FVec Ideal S64x512 .f32) (x1 x2 : FVec Ideal S64x1024x1 .f32) (x3 : FVec Ideal S64x1024x1024 .f32) (x4 : FVec Ideal S64x1024x512 .f32) (x5 : FVec Ideal S64x1024x1024 .f32) (x6 : FVec Ideal S64x1024x512 .f32) (x7 : FVec Ideal S64x1024x1024 .f32) (x8 : FVec Ideal S64x1024x512 .f32) (x9 : FVec Ideal S64x1024x1024 .f32) (x10 : FVec Ideal S64x1024x512 .f32) (x11 x12 x13 x14 x15 x16 x17 x18 : FVec Ideal S64x1024x1 .f32) (i : S64x1024x1.Idx) :
    val_main_v39 (F := Ideal) x0 x1 x9 x10 x17 x18 i = Ideal.logistic (val_main_v33 (F := Ideal) x0 x1 x9 x10 x17 x18 i) := by
  rw [val_main_v39_apply, val_main_v37_apply, val_main_v35_apply, val_main_v34_apply]
  exact logistic_host _ _ _ ((val_main_v38_apply i).trans (val_main_cst_4_apply _)) ((val_main_v36_apply i).trans (val_main_cst_3_apply _))

/-- The reference's new cell state is the cell's. -/
theorem ref_c (x0 : FVec Ideal S64x512 .f32) (x1 x2 : FVec Ideal S64x1024x1 .f32) (x3 : FVec Ideal S64x1024x1024 .f32) (x4 : FVec Ideal S64x1024x512 .f32) (x5 : FVec Ideal S64x1024x1024 .f32) (x6 : FVec Ideal S64x1024x512 .f32) (x7 : FVec Ideal S64x1024x1024 .f32) (x8 : FVec Ideal S64x1024x512 .f32) (x9 : FVec Ideal S64x1024x1024 .f32) (x10 : FVec Ideal S64x1024x512 .f32) (x11 x12 x13 x14 x15 x16 x17 x18 : FVec Ideal S64x1024x1 .f32) :
    val_main_v42 (F := Ideal) x0 x1 x2 x3 x4 x5 x6 x7 x8 x11 x12 x13 x14 x15 x16 = arrC (params x0 x1 x2 x3 x4 x5 x6 x7 x8 x9 x10 x11 x12 x13 x14 x15 x16 x17 x18) := by
  funext i
  obtain ⟨b, r, u, rfl⟩ : ∃ (b : Fin 64) (r : Fin 1024) (u : Fin 1), i = ix3 b r u := ⟨i 0, i 1, i 2, eq_ix3 i⟩
  obtain rfl : u = 0 := Subsingleton.elim _ _
  rw [val_main_v42_apply, val_main_v40_apply, val_main_v41_apply, val_main_v28_apply,
    sig_f x0 x1 x2 x3 x4 x5 x6 x7 x8 x9 x10 x11 x12 x13 x14 x15 x16 x17 x18, sig_i x0 x1 x2 x3 x4 x5 x6 x7 x8 x9 x10 x11 x12 x13 x14 x15 x16 x17 x18, pre_f x0 x1 x2 x3 x4 x5 x6 x7 x8 x9 x10 x11 x12 x13 x14 x15 x16 x17 x18, pre_i x0 x1 x2 x3 x4 x5 x6 x7 x8 x9 x10 x11 x12 x13 x14 x15 x16 x17 x18, pre_g x0 x1 x2 x3 x4 x5 x6 x7 x8 x9 x10 x11 x12 x13 x14 x15 x16 x17 x18]
  rfl

/-- The reference's new hidden state is the cell's. -/
theorem ref_h (x0 : FVec Ideal S64x512 .f32) (x1 x2 : FVec Ideal S64x1024x1 .f32) (x3 : FVec Ideal S64x1024x1024 .f32) (x4 : FVec Ideal S64x1024x512 .f32) (x5 : FVec Ideal S64x1024x1024 .f32) (x6 : FVec Ideal S64x1024x512 .f32) (x7 : FVec Ideal S64x1024x1024 .f32) (x8 : FVec Ideal S64x1024x512 .f32) (x9 : FVec Ideal S64x1024x1024 .f32) (x10 : FVec Ideal S64x1024x512 .f32) (x11 x12 x13 x14 x15 x16 x17 x18 : FVec Ideal S64x1024x1 .f32) :
    val_main_v44 (F := Ideal) x0 x1 x2 x3 x4 x5 x6 x7 x8 x9 x10 x11 x12 x13 x14 x15 x16 x17 x18 = arrH (params x0 x1 x2 x3 x4 x5 x6 x7 x8 x9 x10 x11 x12 x13 x14 x15 x16 x17 x18) := by
  funext i
  obtain ⟨b, r, u, rfl⟩ : ∃ (b : Fin 64) (r : Fin 1024) (u : Fin 1), i = ix3 b r u := ⟨i 0, i 1, i 2, eq_ix3 i⟩
  obtain rfl : u = 0 := Subsingleton.elim _ _
  rw [val_main_v44_apply, val_main_v43_apply, sig_o x0 x1 x2 x3 x4 x5 x6 x7 x8 x9 x10 x11 x12 x13 x14 x15 x16 x17 x18, pre_o x0 x1 x2 x3 x4 x5 x6 x7 x8 x9 x10 x11 x12 x13 x14 x15 x16 x17 x18, ref_c x0 x1 x2 x3 x4 x5 x6 x7 x8 x9 x10 x11 x12 x13 x14 x15 x16 x17 x18]
  rfl

end Cert.ReferenceIdeal.Cell

end
-- ==== Proof.RefRun.lean ====
/-
  The reference's run, re-posted: every weakly fair execution ends with its three results at the cell's arrays of its
  own arguments — the new hidden state without its trailing unit axis, the new hidden state, the new cell state — and
  the arguments unchanged.
-/
import proofs.«137506_j44495861186788_1_alg».proof.Proof.Gen.ReferenceIdeal.Run
import proofs.«137506_j44495861186788_1_alg».proof.Proof.Gen.ReferenceIdeal.Read
import proofs.«137506_j44495861186788_1_alg».proof.Proof.RefCell

noncomputable section

namespace Cert.ReferenceIdeal.Cell

open Cert.ReferenceIdeal Cert.ReferenceIdeal.Gen Cert.ReferenceIdeal.Read Idealize.ShloMosaic Idealize.ShloMosaic.TcCoe Idealize.SL.Sem
open Cert.LstmCell

variable (m : (ℓ : Loc nD τ sig) → Buf (Elt Ideal) ℓ) (ρ : Dev nD → PrngReg)

/-- The cell's parameters as core `c` holds them when the reference starts. -/
def memP (c : Dev nD) : Params 64 1024 512 :=
  params (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))

set_option maxRecDepth 8192 in
set_option maxHeartbeats 1000000 in
theorem run : θ_run defs (onTc (τ := τ) (main (F := Ideal))) ⟨m, fun _ => 0, ρ⟩ fun r => ∀ c : Dev nD,
      r.2.mem ((c.tc : Thread nD τ).loc main_v45) = shapeCast S64x1024 (arrH (memP m c)) shapeCasts_S64x1024x1_S64x1024
      ∧ r.2.mem ((c.tc : Thread nD τ).loc main_v44) = arrH (memP m c)
      ∧ r.2.mem ((c.tc : Thread nD τ).loc main_v42) = arrC (memP m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨(h c).1.trans (by
        rw [val_main_v45_eq]; unfold val_main_v45; rw [ref_h]; rfl),
      (h c).2.1.trans (by rw [val_main_v44_eq, ref_h]; rfl),
      (h c).2.2.1.trans (by
        rw [val_main_v42_eq, ref_c _ _ _ _ _ _ _ _ _ (m ((c.tc : Thread nD τ).loc main_arg9)) (m ((c.tc : Thread nD τ).loc main_arg10)) _ _ _ _ _ _ (m ((c.tc : Thread nD τ).loc main_arg17)) (m ((c.tc : Thread nD τ).loc main_arg18))]; rfl),
      (h c).2.2.2⟩)
    (Cert.ReferenceIdeal.Value.run (F := Ideal) m ρ)

end Cert.ReferenceIdeal.Cell

end
-- ==== Proof.lean ====
/-
  One step of an LSTM cell over a batch of 64: hidden size 1024, input size 512, every batch element with its own
  weights. For batch element b and row r each gate's pre-activation is ((W_h · h0)_r + b_h,r) + (W_x · x)_r + b_x,r,
  the input, forget and output gates are its logistic function, the cell candidate its tanh, and
      c = f · c0 + i · g,     h = o · tanh c
  (module `LibLstmCell`). The kernel walks the batch — one grid point per batch element, the whole contracted axes of
  that element's eight matrices loaded at once — and the reference computes the same cell with batched whole-array
  operations; the results are h without its trailing unit axis, h and c.

  On the extended reals the two programs are the same function, entry by entry, with no algebraic law needed beyond
  reading each operation at an index: a matrix product into a zero accumulator and a batched product are both the sum
  over the contracted axis, the kernel's logistic operation and the reference's 1 / (1 + exp (-z)) are one function,
  and both add the four terms of a pre-activation in the same order. So the precondition is not used by the value
  claim. The kernel's state arrays are read off its frame run block by block (`KernelArrays`, `KernelRun`), the
  reference's off its run one operation at a time (`RefCell`, `RefRun`); here the two are put side by side.
  The idealization rewrote nothing, so what it preserves is trivially so.
-/
import proofs.«137506_j44495861186788_1_alg».proof.Defs
import proofs.«137506_j44495861186788_1_alg».proof.Proof.Gen.Kernel
import proofs.«137506_j44495861186788_1_alg».proof.Proof.Gen.Kernel.Frame
import proofs.«137506_j44495861186788_1_alg».proof.Proof.Gen.KernelIdeal
import proofs.«137506_j44495861186788_1_alg».proof.Proof.Gen.KernelIdeal.Frame
import proofs.«137506_j44495861186788_1_alg».proof.Proof.Gen.ReferenceIdeal
import proofs.«137506_j44495861186788_1_alg».proof.Proof.Gen.ReferenceIdeal.Run
import proofs.«137506_j44495861186788_1_alg».proof.Proof.Gen.Pre_finite_inputs
import proofs.«137506_j44495861186788_1_alg».proof.Proof.KernelRun
import proofs.«137506_j44495861186788_1_alg».proof.Proof.RefRun

noncomputable section

namespace Cert.Proof

open Idealize.ShloMosaic Idealize.SL.Sem

/-- The three programs run and leave their arguments as they were: the kernels by their generated frames, the
    reference by its run with the results dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.Value.run (F := Ideal) m ρ)

/-- From memories agreeing on the arguments the two programs hold the same cell parameters, so both end at the
    cell's arrays of those parameters. -/
theorem algebraic : Cert.algebraic_KernelIdeal_ReferenceIdeal := by
  intro m ρ m' ρ' _ hagree
  have hP : ∀ c : Dev Cert.KernelIdeal.nD, Cert.ReferenceIdeal.Cell.memP m' c = Cert.KernelIdeal.Arrays.memP m c := fun c => by
    obtain ⟨a0, a1, a2, a3, a4, a5, a6, a7, a8, a9, a10, a11, a12, a13, a14, a15, a16, a17, a18⟩ := hagree c
    unfold Cert.ReferenceIdeal.Cell.memP Cert.ReferenceIdeal.Cell.params Cert.KernelIdeal.Arrays.memP
    rw [a0, a1, a2, a3, a4, a5, a6, a7, a8, a9, a10, a11, a12, a13, a14, a15, a16, a17, a18]
    rfl
  refine ⟨_, _, _, Cert.KernelIdeal.Arrays.run m ρ, ?_⟩
  refine (θ_run Cert.ReferenceIdeal.defs _ _).mono (fun _ h c => ?_) (Cert.ReferenceIdeal.Cell.run m' ρ')
  have h' := h c
  rw [hP c] at h'
  exact h'

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
